-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128 .f32) (main_arg10 : FVec F S128x2 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 129
  | .vmem => 34
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x1, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x1, .f32⟩
  | 103 => ⟨S1700000x128, .f32⟩
  | 104 => ⟨S1700000x128, .f32⟩
  | 105 => ⟨S_, .f32⟩
  | 106 => ⟨S100000x128, .f32⟩
  | 107 => ⟨S1700000x1, .i32⟩
  | 108 => ⟨S100000x128, .f32⟩
  | 109 => ⟨S1x128, .f32⟩
  | 110 => ⟨S100000x128, .f32⟩
  | 111 => ⟨S_, .f32⟩
  | 112 => ⟨S64x128, .f32⟩
  | 113 => ⟨S100000x1, .i32⟩
  | 114 => ⟨S64x128, .f32⟩
  | 115 => ⟨S_, .f32⟩
  | 116 => ⟨S100000, .f32⟩
  | 117 => ⟨S_, .f32⟩
  | 118 => ⟨S64, .f32⟩
  | 119 => ⟨S100000x1, .i32⟩
  | 120 => ⟨S64, .f32⟩
  | 121 => ⟨S_, .f32⟩
  | 122 => ⟨S64, .f32⟩
  | 123 => ⟨S64, .f32⟩
  | 124 => ⟨S64x1, .f32⟩
  | 125 => ⟨S64x128, .f32⟩
  | 126 => ⟨S64x128, .f32⟩
  | 127 => ⟨S1x2, .f32⟩
  | _ => ⟨S100000x128, .f32⟩

abbrev hbmTy0_1 (i : Nat) : BufTy := match i % 128 with
  | 0 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S64x128, .f32⟩
  | .local _ .vmem, ⟨31, _⟩ => ⟨S128x2, .f32⟩
  | .local _ .vmem, ⟨32, _⟩ => ⟨S1x2, .f32⟩
  | .local _ .vmem, ⟨33, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_cst_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S64x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S64x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x2, .f32⟩
  | 12 => ⟨S1x2, .f32⟩
  | 13 => ⟨S64x2, .f32⟩
  | 14 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.ResultRun.lean ====
/-
  The kernel program's run with its result named.

  @main is fourteen segments: seven stretches of host operations and seven pipelined regions. The generated frame
  module folds the buffer contents through them — `Gen.W0` at launch, `Gen.W14` when @main returns — and proves that
  every weakly fair execution ends with every unscoped buffer at `Gen.W14`; its own frame theorem then keeps only the
  twelve argument arrays. Here the same run is stated keeping also the result array: it ends at
  `Gen.W14 m ρ c` read at the result's buffer. What that array is as a function of the arguments is the business of
  the modules that follow.
-/
import proofs.«140320_j86998857548336_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the twelve argument arrays as launched. -/
theorem run : θ_run defs (onTc (τ := τ) (main (F := F))) ⟨m, fun _ => 0, ρ⟩ (fun r => ∀ c : Dev nD,
      r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v93 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.ResultRun

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.Prelude.lean ====
/-
  The kernel program before its first region: the edge lists with self loops, and the symmetric normalisation.

  Both programs begin with the same host operations: the source and destination node of each of the 1 700 000 edges
  (the 1 600 000 given ones, then one self loop per node), the edge weights with a 1 for each self loop, the degree
  of each node as the sum of the weights of its incoming edges, d(n)^(-1/2) where the degree is positive and 0
  elsewhere, and the weight d(src)^(-1/2) · w · d(dst)^(-1/2) of each edge. Here the kernel program's buffers after
  these operations are identified with the reference's stages as functions of the launch arguments: the sources,
  the destinations and the edge weights' normalisation; and each argument array is still what it was at launch.
  The three stretches are taken one at a time, the earlier stretch's buffers entering the next as named values.
-/
import proofs.«140320_j86998857548336_1_alg».proof.Proof.Gen.KernelIdeal.Frame
import proofs.«140320_j86998857548336_1_alg».proof.Proof.Gen.ReferenceIdeal.Read
import proofs.«140320_j86998857548336_1_alg».proof.Proof.LibTypedRefs

set_option maxRecDepth 16384

noncomputable section

namespace Cert.KernelIdeal.Prelude

open Cert.KernelIdeal Cert.KernelIdeal.Gen
open Idealize.ShloMosaic Idealize.ShloMosaic.TcCoe Idealize.ShloMosaic.StableHlo

/-- What the one-pass rewriting leaves (operands under a concatenation's list): each operation's result at its own
    buffer is its function's value, at any other buffer what was there. -/
local macro "more_results" : tactic =>
  `(tactic| repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

variable (m : (ℓ : Loc nD τ sig) → Buf (Elt Ideal) ℓ) (ρ : Dev nD → PrngReg) (c : Dev nD)

/-! ## After the first stretch -/

/-- The sources: the first row of the edge list, then the node numbers. -/
theorem w1_v3 : W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  more_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2]
  all_goals rfl

/-- The destinations: the second row of the edge list, then the node numbers. -/
theorem w1_v6 : W1 (F := Ideal) m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  more_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2]
  all_goals rfl

/-- The weights: the given ones, then a 1 per self loop. -/
theorem w1_v8 : W1 (F := Ideal) m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  after_results_simp
  more_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2]
  all_goals rfl

/-- Where the degree is positive. -/
theorem w1_v13 : W1 (F := Ideal) m ρ c (Proc.devRef .tc main_v13) = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  after_results_simp
  more_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2]
  all_goals rfl

/-- The degree to the power -1/2. -/
theorem w1_v14 : W1 (F := Ideal) m ρ c (Proc.devRef .tc main_v14) = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  after_results_simp
  more_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2]
  all_goals rfl

/-- The zero the select falls back to: written by the first stretch, read by the outlined select. -/
theorem w1_cst_2 : W1 (F := Ideal) m ρ c (Proc.devRef .tc main_cst_2) = Cert.ReferenceIdeal.Read.val_main_cst_2 (F := Ideal)  := by
  show StableHlo.after hostOps0 (W0 m ρ c) (Proc.devRef .tc main_cst_2) = _
  after_results_simp
  more_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2]
  all_goals rfl

/-! ## After the outlined select -/

/-- At the select's mask the typed reference's transport is the identity: the buffer's type is the value's. -/
theorem mask_ref (v : main_v13.ty.Contents (Elt Ideal)) :
    (TRef.of main_v13 : TRef sig ⟨S100000, .i1⟩).ofBuf v = v := cast_eq _ _
/-- The same at the select's first branch. -/
theorem branch_ref (v : main_v14.ty.Contents (Elt Ideal)) :
    (TRef.of main_v14 : TRef sig ⟨S100000, .f32⟩).ofBuf v = v := cast_eq _ _
/-- The same at the constant the second branch spreads. -/
theorem zero_ref (v : main_cst_2.ty.Contents (Elt Ideal)) :
    (TRef.of main_cst_2 : TRef sig ⟨S_, .f32⟩).ofBuf v = v := cast_eq _ _
/-- And at the select's result, carried to its buffer. -/
theorem result_ref (v : (⟨S100000, .f32⟩ : BufTy).Contents (Elt Ideal)) :
    (TRef.of main_v15 : TRef sig ⟨S100000, .f32⟩).toBuf v = v := cast_eq _ _

/-- d^(-1/2) where the degree is positive, 0 elsewhere. The select is an outlined function: its operands and its result
    pass through typed references, each a transport along "the buffer's type is the value's type", which here is the
    identity. -/
theorem w2_v15 : W2 (F := Ideal) m ρ c (Proc.devRef .tc main_v15) = Cert.ReferenceIdeal.Read.val_main_v15 (F := Ideal) (m ((c : Thread nD τ).loc main_arg1)) (m ((c : Thread nD τ).loc main_arg2)) := by
  have h_v13 := w1_v13 m ρ c
  have h_v14 := w1_v14 m ρ c
  have h_cst_2 := w1_cst_2 m ρ c
  show StableHlo.after hostOps0_1 (W1 m ρ c) (Proc.devRef .tc main_v15) = _
  generalize W1 (F := Ideal) m ρ c = V at h_v13 h_v14 h_cst_2 ⊢
  after_results_simp
  more_results
  simp only [Cert.LibTypedRefs.ofBuf_toBuf, Cert.LibTypedRefs.toBuf_ofBuf]
  rw [h_v13, h_v14, h_cst_2, mask_ref, branch_ref, zero_ref, result_ref]
  simp only [Cert.ReferenceIdeal.Read.val_main_call0_v0, Cert.ReferenceIdeal.Read.val_main_call0_v1, Cert.ReferenceIdeal.Read.val_main_v15]
  all_goals rfl

theorem w2_v3 : W2 (F := Ideal) m ρ c (Proc.devRef .tc main_v3) = Cert.ReferenceIdeal.Read.val_main_v3 (F := Ideal) (m ((c : Thread nD τ).loc main_arg1)) := by
  have h := w1_v3 m ρ c
  show StableHlo.after hostOps0_1 (W1 m ρ c) (Proc.devRef .tc main_v3) = _
  generalize W1 (F := Ideal) m ρ c = V at h ⊢
  after_results_simp
  exact h

theorem w2_v6 : W2 (F := Ideal) m ρ c (Proc.devRef .tc main_v6) = Cert.ReferenceIdeal.Read.val_main_v6 (F := Ideal) (m ((c : Thread nD τ).loc main_arg1)) := by
  have h := w1_v6 m ρ c
  show StableHlo.after hostOps0_1 (W1 m ρ c) (Proc.devRef .tc main_v6) = _
  generalize W1 (F := Ideal) m ρ c = V at h ⊢
  after_results_simp
  exact h

theorem w2_v8 : W2 (F := Ideal) m ρ c (Proc.devRef .tc main_v8) = Cert.ReferenceIdeal.Read.val_main_v8 (F := Ideal) (m ((c : Thread nD τ).loc main_arg2)) := by
  have h := w1_v8 m ρ c
  show StableHlo.after hostOps0_1 (W1 m ρ c) (Proc.devRef .tc main_v8) = _
  generalize W1 (F := Ideal) m ρ c = V at h ⊢
  after_results_simp
  exact h

/-! ## At the first region's entry -/

/-- The normalised weight of each edge: d(src)^(-1/2) · w · d(dst)^(-1/2), the two factors gathered at the edge's ends. -/
theorem w3_v31 : W3 (F := Ideal) m ρ c (Proc.devRef .tc main_v31) = Cert.ReferenceIdeal.Read.val_main_v31 (F := Ideal) (m ((c : Thread nD τ).loc main_arg1)) (m ((c : Thread nD τ).loc main_arg2)) := by
  have h_v15 := w2_v15 m ρ c
  have h_v3 := w2_v3 m ρ c
  have h_v6 := w2_v6 m ρ c
  have h_v8 := w2_v8 m ρ c
  show StableHlo.after hostOps0_2 (W2 m ρ c) (Proc.devRef .tc main_v31) = _
  generalize W2 (F := Ideal) m ρ c = V at h_v15 h_v3 h_v6 h_v8 ⊢
  after_results_simp
  more_results
  rw [h_v15, h_v3, h_v6, h_v8]
  simp only [Cert.ReferenceIdeal.Read.val_main_c, Cert.ReferenceIdeal.Read.val_main_v16, Cert.ReferenceIdeal.Read.val_main_v17, Cert.ReferenceIdeal.Read.val_main_c_3, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_c_4, Cert.ReferenceIdeal.Read.val_main_v24, Cert.ReferenceIdeal.Read.val_main_v25, Cert.ReferenceIdeal.Read.val_main_c_5, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31]
  all_goals rfl

theorem w3_v3 : W3 (F := Ideal) m ρ c (Proc.devRef .tc main_v3) = Cert.ReferenceIdeal.Read.val_main_v3 (F := Ideal) (m ((c : Thread nD τ).loc main_arg1)) := by
  have h := w2_v3 m ρ c
  show StableHlo.after hostOps0_2 (W2 m ρ c) (Proc.devRef .tc main_v3) = _
  generalize W2 (F := Ideal) m ρ c = V at h ⊢
  after_results_simp
  exact h

theorem w3_v6 : W3 (F := Ideal) m ρ c (Proc.devRef .tc main_v6) = Cert.ReferenceIdeal.Read.val_main_v6 (F := Ideal) (m ((c : Thread nD τ).loc main_arg1)) := by
  have h := w2_v6 m ρ c
  show StableHlo.after hostOps0_2 (W2 m ρ c) (Proc.devRef .tc main_v6) = _
  generalize W2 (F := Ideal) m ρ c = V at h ⊢
  after_results_simp
  exact h

/-! ## The arguments are as launched -/

theorem w3_arg0 : W3 (F := Ideal) m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp
  all_goals rfl

theorem w3_arg3 : W3 (F := Ideal) m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
  all_goals rfl

theorem w3_arg4 : W3 (F := Ideal) m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
  all_goals rfl

theorem w3_arg5 : W3 (F := Ideal) m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp
  all_goals rfl

theorem w3_arg6 : W3 (F := Ideal) m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp
  all_goals rfl

theorem w3_arg7 : W3 (F := Ideal) m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp
  all_goals rfl

theorem w3_arg8 : W3 (F := Ideal) m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp
  all_goals rfl

theorem w3_arg9 : W3 (F := Ideal) m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp
  all_goals rfl

theorem w3_arg10 : W3 (F := Ideal) m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp
  all_goals rfl

theorem w3_arg11 : W3 (F := Ideal) m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp
  all_goals rfl

end Cert.KernelIdeal.Prelude

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«140320_j86998857548336_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibColSum.lean ====
/-
  Over the library only, at the ideal instance: a sum down the columns of an [a, b] matrix. A multi_reduction <add>
  along axis 0 into [b] reads, at column c, the sum over k < a of the entries (k, c) (the accumulator being the zero
  word); the lifted index over c with k inserted on axis 0 is (k, c).
-/
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A [b] vector shape-cast to a [1, b] row reads, at (0, c), the vector's entry c. -/
theorem row_of_vec {b : ℕ} {α : Type} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) :=
  (shapeCast_addUnit_apply ![b] v h (ix2 (0 : Fin 1) c)).trans
    (congrArg v (funext fun d => by match d with | ⟨0, _⟩ => rfl))

end Cert.LibColSum

end
-- ==== Proof.LibReluDense.lean ====
/-
  A bias-and-positive-part stage and the plain matrix product it feeds, on the extended reals, in the two spellings that
  lower from "relu(x + b) @ w".
  For an M×K array x, a bias given as a one-row array b (shape [1, K]) and a K×N weight w:
      dense x w      : (a, c) ↦ Σ_{k<K} x(a,k) · w(k,c)
      biasRelu x b   : (a, k) ↦ max (x(a,k) + b(0,k)) 0
      reluDense x b w = dense (biasRelu x b) w : (a, c) ↦ Σ_{k<K} max (x(a,k) + b(0,k)) 0 · w(k,c) .
  * dense_of_matmul / dense_of_dotGeneral: a matrix unit's product over the plain dimension numbers into a zero accumulator,
    the operands first narrowed to a 16-bit float format (the identity on the extended reals) and the weight shape-cast to
    its own shape, and the host's product over the same dimension numbers, are both dense.
  * biasRelu_of_broadcastTo / biasRelu_of_broadcastInDim: the operands shape-cast to their own shapes, the row broadcast over
    the rows and a maximum with a splat of the scalar word 0; and the row broadcast along the axes [0, 1] with a maximum
    against a rank-0 constant 0 broadcast along no axis, are both biasRelu.
  * reluDense_of_matmul / reluDense_of_dotGeneral: the two together.
  * dense_rows, biasRelu_rows, reluDense_rows: a row of the result depends on x only through the same row, so a block of
    rows of x gives that block of rows of the result (for kernels that tile the rows over a grid).
  * dense_block, biasRelu_block, reluDense_block: the same with the two positions given as indices.
  * row_reshape_eq_broadcast: a [K] vector reshaped to a [1, K] row is the vector broadcast along axis 1.
  Over the library and the plain-product, row-broadcast and small-shape lemmas only; every extent is a variable.
-/
import Idealize.ShloMosaic.PureOps.Ideal.Laws
import Idealize.ShloMosaic.Lib.ValueIdx
import Idealize.ShloMosaic.Lib.Pipeline.Value
import proofs.«140320_j86998857548336_1_alg».proof.Proof.LibPlainDot
import proofs.«140320_j86998857548336_1_alg».proof.Proof.LibDenseStage
import proofs.«140320_j86998857548336_1_alg».proof.Proof.LibHostBroadcast
import proofs.«140320_j86998857548336_1_alg».proof.Proof.LibColSum

noncomputable section

namespace Cert.LibReluDense

open Idealize.ShloMosaic Idealize.ShloMosaic.ValueIdx

variable (M K N : Nat)

/-! ## The plain product -/

/-- The product of an M×K array with a K×N array. -/
def dense (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem dense_apply (x : FVec Ideal ⟨2, ![M, K]⟩ .f32) (w : FVec Ideal ⟨2, ![K, N]⟩ .f32) (a : Fin M) (c : Fin N) :
    dense M K N x w (ix2 a c) = ∑ k : Fin K, x (ix2 a k) * w (ix2 k c) := rfl

/-- Row a' of a block's product is row a of the whole's, when the block's row a' is the whole's row a. -/
theorem dense_rows (M' : Nat) (X : FVec Ideal ⟨2, ![M, K]⟩ .f32) (x : FVec Ideal ⟨2, ![M', K]⟩ .f32)
    (w : FVec Ideal ⟨2, ![K, N]⟩ .f32) (a : Fin M) (a' : Fin M') (h : ∀ k : Fin K, x (ix2 a' k) = X (ix2 a k)) (c : Fin N) :
    dense M' K N x w (ix2 a' c) = dense M K N X w (ix2 a c) := by
  rw [dense_apply, dense_apply]
  exact Finset.sum_congr rfl fun k _ => by rw [h k]

/-- The matrix unit's spelling of the product. -/
theorem dense_of_matmul (x : FVec Ideal ⟨2, ![M, K]⟩ .f32) (w : FVec Ideal ⟨2, ![K, N]⟩ .f32)
    (h1 : FTy.bf16.bits < FTy.f32.bits) (h2 : FTy.bf16.bits < FTy.f32.bits)
    (hw : (⟨2, ![K, N]⟩ : Shape).ShapeCasts ⟨2, ![K, N]⟩) :
    matmul (F := Ideal) (DotDims.plain M K N) none (truncf .bf16 x h1) (truncf .bf16 (shapeCast ⟨2, ![K, N]⟩ w hw) h2)
        (constant ⟨2, ![M, N]⟩ .f32 0x00000000#32)
      = dense M K N x w := by
  funext i
  obtain ⟨a, c, rfl⟩ : ∃ (a : Fin M) (c : Fin N), i = ix2 a c := ⟨i 0, i 1, eq_ix2 i⟩
  rw [Cert.LibPlainDot.matmul_plain, shapeCast_self]
  rfl

/-- The host's spelling of the product. -/
theorem dense_of_dotGeneral (x : FVec Ideal ⟨2, ![M, K]⟩ .f32) (w : FVec Ideal ⟨2, ![K, N]⟩ .f32) :
    Host.dotGeneral (F := Ideal) (DotDims.plain M K N) none x w = dense M K N x w := by
  funext i
  obtain ⟨a, c, rfl⟩ : ∃ (a : Fin M) (c : Fin N), i = ix2 a c := ⟨i 0, i 1, eq_ix2 i⟩
  rw [Cert.LibPlainDot.dotGeneral_plain]
  rfl

/-! ## The bias row and the positive part -/

/-- x plus the bias row, cut off below at 0. -/
def biasRelu (x : FVec Ideal ⟨2, ![M, K]⟩ .f32) (b : FVec Ideal ⟨2, ![1, K]⟩ .f32) : FVec Ideal ⟨2, ![M, K]⟩ .f32 :=
  fun i => max (x i + b (ix2 (0 : Fin 1) (i 1))) 0

theorem biasRelu_apply (x : FVec Ideal ⟨2, ![M, K]⟩ .f32) (b : FVec Ideal ⟨2, ![1, K]⟩ .f32) (a : Fin M) (k : Fin K) :
    biasRelu M K x b (ix2 a k) = max (x (ix2 a k) + b (ix2 (0 : Fin 1) k)) 0 := rfl

/-- An entry of the stage depends on x only through the same entry. -/
theorem biasRelu_rows (M' : Nat) (X : FVec Ideal ⟨2, ![M, K]⟩ .f32) (x : FVec Ideal ⟨2, ![M', K]⟩ .f32)
    (b : FVec Ideal ⟨2, ![1, K]⟩ .f32) (a : Fin M) (a' : Fin M') (k : Fin K) (h : x (ix2 a' k) = X (ix2 a k)) :
    biasRelu M' K x b (ix2 a' k) = biasRelu M K X b (ix2 a k) := by
  rw [biasRelu_apply, biasRelu_apply, h]

/-- The kernel's spelling: both operands shape-cast to their own shapes, the row broadcast over the rows, a maximum with a
    splat of the scalar word 0. -/
theorem biasRelu_of_broadcastTo (x : FVec Ideal ⟨2, ![M, K]⟩ .f32) (b : FVec Ideal ⟨2, ![1, K]⟩ .f32)
    (hx : (⟨2, ![M, K]⟩ : Shape).ShapeCasts ⟨2, ![M, K]⟩) (hc : (⟨2, ![1, K]⟩ : Shape).ShapeCasts ⟨2, ![1, K]⟩)
    (hb : (⟨2, ![1, K]⟩ : Shape).Broadcasts ⟨2, ![M, K]⟩) :
    maximumf (addf (shapeCast ⟨2, ![M, K]⟩ x hx) (broadcastTo ⟨2, ![M, K]⟩ (shapeCast ⟨2, ![1, K]⟩ b hc) hb))
        (broadcast ⟨2, ![M, K]⟩ (Scalar.ofBits (F := Ideal) .f32 0x00000000#32))
      = biasRelu M K x b := by
  funext i
  obtain ⟨a, k, rfl⟩ : ∃ (a : Fin M) (k : Fin K), i = ix2 a k := ⟨i 0, i 1, eq_ix2 i⟩
  rw [maximumf_apply, addf_apply, broadcast_apply, shapeCast_self, shapeCast_self, Cert.LibDenseStage.row_broadcastTo,
    biasRelu_apply]
  exact congrArg (max _) Ideal.ofBits_zero_f32

/-- The host's spelling: the row broadcast along the axes [0, 1], a maximum with a rank-0 constant 0 broadcast along no axis. -/
theorem biasRelu_of_broadcastInDim (x : FVec Ideal ⟨2, ![M, K]⟩ .f32) (b : FVec Ideal ⟨2, ![1, K]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    maximumf (addf x (broadcastInDim ⟨2, ![M, K]⟩ ![0, 1] hb b))
        (broadcastInDim ⟨2, ![M, K]⟩ ![] h0 (constant (F := Ideal) ⟨0, ![]⟩ .f32 0x00000000#32))
      = biasRelu M K x b := by
  funext i
  obtain ⟨a, k, rfl⟩ : ∃ (a : Fin M) (k : Fin K), i = ix2 a k := ⟨i 0, i 1, eq_ix2 i⟩
  rw [maximumf_apply, addf_apply, Cert.LibDenseStage.row_broadcastInDim, biasRelu_apply,
    broadcastInDim_apply (![] : Fin 0 → Fin 2) h0 _ (ix2 a k) ix0 (fun ax => ax.elim0), constant_apply]
  exact congrArg (max _) Ideal.ofBits_zero_f32

/-! ## The two together -/

/-- The positive part of x plus the bias row, times w. -/
def reluDense (x : FVec Ideal ⟨2, ![M, K]⟩ .f32) (b : FVec Ideal ⟨2, ![1, K]⟩ .f32) (w : FVec Ideal ⟨2, ![K, N]⟩ .f32) :
    FVec Ideal ⟨2, ![M, N]⟩ .f32 :=
  dense M K N (biasRelu M K x b) w

/-- Row a' of a block's result is row a of the whole's, when the block's row a' is the whole's row a. -/
theorem reluDense_rows (M' : Nat) (X : FVec Ideal ⟨2, ![M, K]⟩ .f32) (x : FVec Ideal ⟨2, ![M', K]⟩ .f32)
    (b : FVec Ideal ⟨2, ![1, K]⟩ .f32) (w : FVec Ideal ⟨2, ![K, N]⟩ .f32) (a : Fin M) (a' : Fin M')
    (h : ∀ k : Fin K, x (ix2 a' k) = X (ix2 a k)) (c : Fin N) :
    reluDense M' K N x b w (ix2 a' c) = reluDense M K N X b w (ix2 a c) :=
  dense_rows M K N M' _ _ w a a' (fun k => biasRelu_rows M K M' X x b a a' k (h k)) c

/-- The matrix unit's spelling. -/
theorem reluDense_of_matmul (x : FVec Ideal ⟨2, ![M, K]⟩ .f32) (b : FVec Ideal ⟨2, ![1, K]⟩ .f32) (w : FVec Ideal ⟨2, ![K, N]⟩ .f32)
    (h1 : FTy.bf16.bits < FTy.f32.bits) (h2 : FTy.bf16.bits < FTy.f32.bits)
    (hx : (⟨2, ![M, K]⟩ : Shape).ShapeCasts ⟨2, ![M, K]⟩) (hc : (⟨2, ![1, K]⟩ : Shape).ShapeCasts ⟨2, ![1, K]⟩)
    (hb : (⟨2, ![1, K]⟩ : Shape).Broadcasts ⟨2, ![M, K]⟩) (hw : (⟨2, ![K, N]⟩ : Shape).ShapeCasts ⟨2, ![K, N]⟩) :
    matmul (F := Ideal) (DotDims.plain M K N) none
        (truncf .bf16 (maximumf (addf (shapeCast ⟨2, ![M, K]⟩ x hx) (broadcastTo ⟨2, ![M, K]⟩ (shapeCast ⟨2, ![1, K]⟩ b hc) hb))
          (broadcast ⟨2, ![M, K]⟩ (Scalar.ofBits (F := Ideal) .f32 0x00000000#32))) h1)
        (truncf .bf16 (shapeCast ⟨2, ![K, N]⟩ w hw) h2) (constant ⟨2, ![M, N]⟩ .f32 0x00000000#32)
      = reluDense M K N x b w := by
  rw [biasRelu_of_broadcastTo]
  exact dense_of_matmul M K N _ w h1 h2 hw

/-- The host's spelling. -/
theorem reluDense_of_dotGeneral (x : FVec Ideal ⟨2, ![M, K]⟩ .f32) (b : FVec Ideal ⟨2, ![1, K]⟩ .f32) (w : FVec Ideal ⟨2, ![K, N]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    Host.dotGeneral (F := Ideal) (DotDims.plain M K N) none
        (maximumf (addf x (broadcastInDim ⟨2, ![M, K]⟩ ![0, 1] hb b))
          (broadcastInDim ⟨2, ![M, K]⟩ ![] h0 (constant (F := Ideal) ⟨0, ![]⟩ .f32 0x00000000#32))) w
      = reluDense M K N x b w := by
  rw [biasRelu_of_broadcastInDim]
  exact dense_of_dotGeneral M K N _ w

/-! ## A block of rows, at an index

The same three facts with the two positions given as indices: j in a block of M' rows, i in the whole array, in the same
column, the block's row of j being the whole's row of i. -/

theorem dense_block (M' : Nat) (X : FVec Ideal ⟨2, ![M, K]⟩ .f32) (x : FVec Ideal ⟨2, ![M', K]⟩ .f32)
    (w : FVec Ideal ⟨2, ![K, N]⟩ .f32) (i : (⟨2, ![M, N]⟩ : Shape).Idx) (j : (⟨2, ![M', N]⟩ : Shape).Idx)
    (h : ∀ k : Fin K, x (ix2 (j 0) k) = X (ix2 (i 0) k)) (hc : (j 1).val = (i 1).val) :
    dense M' K N x w j = dense M K N X w i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact dense_rows M K N M' X x w a a' h c'

theorem biasRelu_block (M' : Nat) (X : FVec Ideal ⟨2, ![M, K]⟩ .f32) (x : FVec Ideal ⟨2, ![M', K]⟩ .f32)
    (b : FVec Ideal ⟨2, ![1, K]⟩ .f32) (i : (⟨2, ![M, K]⟩ : Shape).Idx) (j : (⟨2, ![M', K]⟩ : Shape).Idx)
    (h : x j = X i) (hc : (j 1).val = (i 1).val) :
    biasRelu M' K x b j = biasRelu M K X b i := by
  obtain ⟨a', c', rfl⟩ : ∃ (a' : Fin M') (c' : Fin K), j = ix2 a' c' := ⟨j 0, j 1, eq_ix2 j⟩
  obtain ⟨a, c, rfl⟩ : ∃ (a : Fin M) (c : Fin K), i = ix2 a c := ⟨i 0, i 1, eq_ix2 i⟩
  obtain rfl : c' = c := Fin.ext hc
  exact biasRelu_rows M K M' X x b a a' c' h

theorem reluDense_block (M' : Nat) (X : FVec Ideal ⟨2, ![M, K]⟩ .f32) (x : FVec Ideal ⟨2, ![M', K]⟩ .f32)
    (b : FVec Ideal ⟨2, ![1, K]⟩ .f32) (w : FVec Ideal ⟨2, ![K, N]⟩ .f32) (i : (⟨2, ![M, N]⟩ : Shape).Idx)
    (j : (⟨2, ![M', N]⟩ : Shape).Idx) (h : ∀ k : Fin K, x (ix2 (j 0) k) = X (ix2 (i 0) k)) (hc : (j 1).val = (i 1).val) :
    reluDense M' K N x b w j = reluDense M K N X b w i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact reluDense_rows M K N M' X x b w a a' h c'

/-! ## The bias row from a vector -/

/-- A [K] vector reshaped to a [1, K] row is the vector broadcast along axis 1. -/
theorem row_reshape_eq_broadcast {α : Type} (v : (⟨1, ![K]⟩ : Shape).Idx → α) (h : (⟨1, ![K]⟩ : Shape).ShapeCasts ⟨2, ![1, K]⟩)
    (h' : (⟨1, ![K]⟩ : Shape).BroadcastsInDim ⟨2, ![1, K]⟩ (![1] : Fin 1 → Fin 2)) :
    shapeCast ⟨2, ![1, K]⟩ v h = broadcastInDim ⟨2, ![1, K]⟩ ![1] h' v := by
  funext i
  obtain ⟨u, c, rfl⟩ : ∃ (u : Fin 1) (c : Fin K), i = ix2 u c := ⟨i 0, i 1, eq_ix2 i⟩
  obtain rfl : u = 0 := Subsingleton.elim _ _
  rw [Cert.LibColSum.row_of_vec, Cert.LibHostBroadcast.vec_to_row]

end Cert.LibReluDense

end
-- ==== Proof.Region0.lean ====
/-
  Region 0 of the kernel program (the first layer's x · W1): the product of a 100000×128 array with a 128×128 weight, computed in twenty
  tiles of 5000 rows.

  At grid point t the body sees rows 5000·t … 5000·t + 4999 of the left array and the whole weight, and stores
  their product — a matrix unit's product into a zero accumulator, the operands first narrowed to a 16-bit float
  format, which on the extended reals is the identity — into the same rows of the output. A row of a product
  depends on the left array only through the same row, so each tile is that block of rows of the whole product;
  the twenty tiles cover the 100000 rows; hence the output array ends as the whole product
      (a, c) ↦ Σ_{k<128} X(a,k) · W(k,c)
  of the two arrays as the region finds them. Everything is stated at a parameter V, the buffer contents when the
  region is entered.
-/
import proofs.«140320_j86998857548336_1_alg».proof.Proof.Gen.KernelIdeal.Frame
import proofs.«140320_j86998857548336_1_alg».proof.Proof.LibReluDense
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat Cfg Window)
open Cert.LibReluDense (dense)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the whole product of the two input arrays. -/
abbrev product (a0 : S100000x128.Idx → Elt Ideal .f32) (a1 : S128x128.Idx → Elt Ideal .f32) : S100000x128.Idx → Elt Ideal .f32 :=
  dense 100000 128 128 a0 a1

/-- The body's arithmetic on a tile is the product of the tile with the weight. -/
theorem tile_product (x0 : Vec Ideal S5000x128 .f32) (x1 : Vec Ideal S128x128 .f32) :
    k0_pay1 (F := Ideal) x0 x1 = dense 5000 128 128 x0 x1 := by
  funext j
  show matmul (F := Ideal) (DotDims.plain 5000 128 128) none
      (truncf .bf16 x0 bitsLt_bf16_f32) (truncf .bf16 x1 bitsLt_bf16_f32)
      (constant ⟨2, ![5000, 128]⟩ .f32 0x00000000#32) j = _
  exact Cert.LibPlainDot.matmul_plain 5000 128 128 none _ _ j

/-- Row j of a tile's product is row i of the whole product when the tile's row j is the whole's row i, the tile's
    weight is the whole weight, and the columns agree. -/
theorem tile_of_whole (X : FVec Ideal ⟨2, ![100000, 128]⟩ .f32) (W w : FVec Ideal ⟨2, ![128, 128]⟩ .f32)
    (x : FVec Ideal ⟨2, ![5000, 128]⟩ .f32) (j : (⟨2, ![5000, 128]⟩ : Shape).Idx) (i : (⟨2, ![100000, 128]⟩ : Shape).Idx)
    (hx : ∀ k : Fin 128, x (ix2 (j 0) k) = X (ix2 (i 0) k)) (hw : ∀ y, w y = W y) (hc : (j 1).val = (i 1).val) :
    dense 5000 128 128 x w j = dense 100000 128 128 X W i := by
  obtain rfl : w = W := funext hw
  exact Cert.LibReluDense.dense_block 100000 128 128 5000 X x w i j hx hc

/-- The index maps over the twenty grid points: the left array's and the output's block row is the point, their
    block column 0; the weight's block is always the first. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem flushed_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  rw [tile_product]
  obtain ⟨e0, e1, e2, e3, e4, e5⟩ := index_maps t
  funext j
  show dense 5000 128 128 (iblk0 V c 0 t) (iblk0 V c 1 t) j
    = dense 100000 128 128 (V c main_arg0) (V c main_arg4) (((cfg0.win 2).blk t).view.emb j)
  refine tile_of_whole (V c main_arg0) (V c main_arg4) (iblk0 V c 1 t) (iblk0 V c 0 t) j (((cfg0.win 2).blk t).view.emb j)
    (fun k => ?_) (fun y => ?_) ?_
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg4 (((cfg0.win 1).blk t).view.emb y) = V c main_arg4 y
    refine congrArg (V c main_arg4) (funext fun a => Fin.ext ?_)
    match a with
    | ⟨0, _⟩ =>
      show win0_1.index t (0 : Fin 2) * 128 + 1 * (y 0).val = (y 0).val
      omega
    | ⟨1, _⟩ =>
      show win0_1.index t (1 : Fin 2) * 128 + 1 * (y 1).val = (y 1).val
      omega
  · show (j 1).val = win0_2.index t (1 : Fin 2) * 128 + 1 * (j 1).val
    omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The twenty blocks cover the output array: row r lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := index_maps ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    have e4' : win0_2.index ⟨(i 0).val / 5000, ht⟩ (0 : Fin 2) = (i 0).val / 5000 := e4
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The output array after the region: the whole product of the two input arrays as the region finds them. -/
theorem array_eq (c : Dev nD) :
    (dat0 V c).arrAt 2 cfg0.N = product (V c main_arg0) (V c main_arg4) :=
  (dat0 V c).arrAt_eq_of_cover 2 _ (fun t _ => flushed_eq V c t) cover

end Cert.KernelIdeal.Region0

end
-- ==== Proof.Region1.lean ====
/-
  Region 1 of the kernel program (the first layer's relu(agg + b1)): a bias row added to a 100000×128 array and the positive part taken,
  in twenty tiles of 5000 rows.

  At grid point t the body sees rows 5000·t … 5000·t + 4999 of the array and the whole one-row bias, and stores
      (r, k) ↦ max (x(r,k) + b(0,k)) 0
  into the same rows of the output. An entry of that stage depends on the array only through the same entry, so
  each tile is that block of rows of the stage of the whole array; the twenty tiles cover the 100000 rows; hence
  the output array ends as the stage of the whole array as the region finds it. Everything is stated at a parameter
  V, the buffer contents when the region is entered.
-/
import proofs.«140320_j86998857548336_1_alg».proof.Proof.Gen.KernelIdeal.Frame
import proofs.«140320_j86998857548336_1_alg».proof.Proof.LibReluDense
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat Cfg Window)
open Cert.LibReluDense (biasRelu)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the array plus the bias row, cut off below at 0. -/
abbrev shifted (a0 : S100000x128.Idx → Elt Ideal .f32) (a1 : S1x128.Idx → Elt Ideal .f32) : S100000x128.Idx → Elt Ideal .f32 :=
  biasRelu 100000 128 a0 a1

/-- The body's arithmetic on a tile is that stage of the tile. -/
theorem tile_stage (x0 : Vec Ideal S5000x128 .f32) (x1 : Vec Ideal S1x128 .f32) :
    k1_pay1 (F := Ideal) x0 x1 = biasRelu 5000 128 x0 x1 := by
  unfold k1_pay1
  exact Cert.LibReluDense.biasRelu_of_broadcastTo 5000 128 x0 x1 shapeCasts_S5000x128_S5000x128 shapeCasts_S1x128_S1x128
    broadcasts_S1x128_S5000x128

/-- Entry j of a tile's stage is entry i of the whole's when the tile's entry j is the whole's entry i, the tile's bias
    row is the whole row, and the columns agree. -/
theorem tile_of_whole (X : FVec Ideal ⟨2, ![100000, 128]⟩ .f32) (B b : FVec Ideal ⟨2, ![1, 128]⟩ .f32)
    (x : FVec Ideal ⟨2, ![5000, 128]⟩ .f32) (j : (⟨2, ![5000, 128]⟩ : Shape).Idx) (i : (⟨2, ![100000, 128]⟩ : Shape).Idx)
    (hx : x j = X i) (hb : ∀ y, b y = B y) (hc : (j 1).val = (i 1).val) :
    biasRelu 5000 128 x b j = biasRelu 100000 128 X B i := by
  obtain rfl : b = B := funext hb
  exact Cert.LibReluDense.biasRelu_block 100000 128 5000 X x b i j hx hc

/-- The index maps over the twenty grid points: the array's and the output's block row is the point, their block
    column 0; the bias row's block is always the first. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the stage of the whole array as the region finds it. -/
theorem flushed_eq (c : Dev nD) (t : Fin cfg1.N) :
    (dat1 V c).flushed 2 t = ((cfg1.win 2).blk t).view.read (Elt Ideal) (shifted (V c main_v45) (V c main_v46)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  rw [tile_stage]
  obtain ⟨e0, e1, e2, e3, e4, e5⟩ := index_maps t
  funext j
  show biasRelu 5000 128 (iblk1 V c 0 t) (iblk1 V c 1 t) j
    = biasRelu 100000 128 (V c main_v45) (V c main_v46) (((cfg1.win 2).blk t).view.emb j)
  refine tile_of_whole (V c main_v45) (V c main_v46) (iblk1 V c 1 t) (iblk1 V c 0 t) j (((cfg1.win 2).blk t).view.emb j)
    ?_ (fun y => ?_) ?_
  · show V c main_v45 (((cfg1.win 0).blk t).view.emb j) = V c main_v45 (((cfg1.win 2).blk t).view.emb j)
    refine congrArg (V c main_v45) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v46 (((cfg1.win 1).blk t).view.emb y) = V c main_v46 y
    refine congrArg (V c main_v46) (funext fun a => Fin.ext ?_)
    match a with
    | ⟨0, _⟩ =>
      show win1_1.index t (0 : Fin 2) * 1 + 1 * (y 0).val = (y 0).val
      omega
    | ⟨1, _⟩ =>
      show win1_1.index t (1 : Fin 2) * 128 + 1 * (y 1).val = (y 1).val
      omega
  · show (j 1).val = win1_2.index t (1 : Fin 2) * 128 + 1 * (j 1).val
    omega

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- The twenty blocks cover the output array: row r lies in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, e2, e3, e4, e5⟩ := index_maps ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e4' : win1_2.index ⟨(i 0).val / 5000, ht⟩ (0 : Fin 2) = (i 0).val / 5000 := e4
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- The output array after the region: the stage of the whole array and the bias row as the region finds them. -/
theorem array_eq (c : Dev nD) :
    (dat1 V c).arrAt 2 cfg1.N = shifted (V c main_v45) (V c main_v46) :=
  (dat1 V c).arrAt_eq_of_cover 2 _ (fun t _ => flushed_eq V c t) cover

end Cert.KernelIdeal.Region1

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.LibEluStage.lean ====
/-
  An affine stage, and the exponential linear unit after it, on the extended reals — in the two spellings that
  lower from "x @ w + b" and from "where(y > 0, y, exp(y) - 1)" against "elu(y)".

  For an M×K array x, a K×N weight w and a bias given as a one-row array b (shape [1, N]) the affine stage is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast
    to its own shape) spread over the rows, is the affine stage.
  * affine_of_dotGeneral: the host's product over the same dimension numbers plus the bias row spread along the axes
    [0, 1] is the affine stage.
  * affine_rows: a row of the stage depends on x only through the same row of x, so a block of rows of x gives that
    block of the stage (for kernels that tile the rows over a grid).
  * row_of_vector_cast, row_of_vector_bcast: a length-N vector made a [1, N] row by a reshape, or by a broadcast that
    keeps axis 1, reads the vector's entry c at (0, c); so the two rows are one array (row_cast_eq_bcast).

  The unit: elu y is y where the comparison y > 0 answers 1, and e^y − 1 elsewhere (the comparison against the zero word,
  the 1 written as the word 0x3F800000).
  * elu_of_where: the kernel's spelling select(y > 0, y, exp y − 1), with splat scalar constants, is elu entry by entry.
  * elu_of_expm1: the host's spelling select(y > 0, y, 1·expm1(select(y > 0, 0, y))), with rank-0 constants spread
    along no axis, is elu entry by entry: where the comparison answers 1 both give y; elsewhere the inner select
    gives y back, expm1 y is e^y − 1 by definition, and 1·z = z on the extended reals.
  No finiteness hypothesis anywhere. Over the library, the plain-product lemmas, the dense-stage row lemmas, the
  word spellings and the host-broadcast lemmas; every extent is a variable.
-/
import Idealize.ShloMosaic.PureOps.Ideal.Laws
import Idealize.ShloMosaic.Lib.ValueIdx
import Idealize.ShloMosaic.Lib.Pipeline.Value
import proofs.«140320_j86998857548336_1_alg».proof.Proof.LibPlainDot
import proofs.«140320_j86998857548336_1_alg».proof.Proof.LibDenseStage
import proofs.«140320_j86998857548336_1_alg».proof.Proof.LibSpellings
import proofs.«140320_j86998857548336_1_alg».proof.Proof.LibHostBroadcast

noncomputable section

namespace Cert.LibEluStage

open Idealize.ShloMosaic Idealize.ShloMosaic.ValueIdx

variable (M K N : Nat)

/-! ## The affine stage -/

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- Row a' of a block's stage is row a of the whole's, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The matrix unit's spelling of the affine stage. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the affine stage. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-! ## A vector as a one-row array -/

/-- A length-N vector reshaped to a [1, N] row reads, at (0, c), the vector's entry c. -/
theorem row_of_vector_cast {α : Type} (v : (⟨1, ![N]⟩ : Shape).Idx → α) (h : (⟨1, ![N]⟩ : Shape).ShapeCasts ⟨2, ![1, N]⟩)
    (u : Fin 1) (c : Fin N) : shapeCast ⟨2, ![1, N]⟩ v h (ix2 u c) = v (ix1 c) :=
  shapeCast_apply v h _ _ (by
    rw [Shape.rowMajor_val_two, Shape.rowMajor_val_one]
    show c.val = u.val * N + c.val
    have hu : u.val = 0 := Nat.lt_one_iff.mp u.isLt
    rw [hu, Nat.zero_mul, Nat.zero_add])

/-- The reshape and the axis-1 broadcast of a vector to a one-row array are one array. -/
theorem row_cast_eq_bcast {α : Type} (v : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    broadcastInDim ⟨2, ![1, N]⟩ ![1] h' v = shapeCast ⟨2, ![1, N]⟩ v h := by
  funext i
  obtain ⟨u, c, rfl⟩ : ∃ (u : Fin 1) (c : Fin N), i = ix2 u c := ⟨i 0, i 1, eq_ix2 i⟩
  rw [Cert.LibHostBroadcast.vec_to_row, row_of_vector_cast]

/-! ## The exponential linear unit -/

/-- y where y > 0 answers 1, e^y − 1 elsewhere. -/
def elu (y : Ideal .f32) : Ideal .f32 :=
  Scalar.select (FloatOps.cmpf .ogt y (Ideal.ofBits .f32 0x00000000#32)) y (Ideal.exp y - Ideal.ofBits .f32 0x3F800000#32)

/-- The kernel's spelling. -/
theorem elu_of_where {s : Shape} (y : FVec Ideal s .f32) :
    select (cmpf .ogt y (broadcast s (Scalar.ofBits (F := Ideal) .f32 0x00000000#32))) y
      (subf (exp y) (broadcast s (Scalar.ofBits (F := Ideal) .f32 0x3F800000#32)))
      = fun i => elu (y i) := rfl

/-- The host's spelling. -/
theorem elu_of_expm1 {s : Shape} (y : FVec Ideal s .f32)
    (h0 : (⟨0, ![]⟩ : Shape).BroadcastsInDim s (![] : Fin 0 → Fin s.rank)) :
    select (cmpf .ogt y (broadcastInDim s ![] h0 (constant (F := Ideal) ⟨0, ![]⟩ .f32 0x00000000#32))) y
      (mulf (broadcastInDim s ![] h0 (constant (F := Ideal) ⟨0, ![]⟩ .f32 0x3F800000#32))
        (Host.expm1 (select (cmpf .ogt y (broadcastInDim s ![] h0 (constant (F := Ideal) ⟨0, ![]⟩ .f32 0x00000000#32)))
          (broadcastInDim s ![] h0 (id (constant (F := Ideal) ⟨0, ![]⟩ .f32 0x00000000#32))) y)))
      = fun i => elu (y i) := by
  funext i
  have hz : broadcastInDim s ![] h0 (constant (F := Ideal) ⟨0, ![]⟩ .f32 0x00000000#32) i = Ideal.ofBits .f32 0x00000000#32 :=
    Cert.LibHostBroadcast.scalar_to_any _ h0 i
  have ho : broadcastInDim s ![] h0 (constant (F := Ideal) ⟨0, ![]⟩ .f32 0x3F800000#32) i = Ideal.ofBits .f32 0x3F800000#32 :=
    Cert.LibHostBroadcast.scalar_to_any _ h0 i
  rw [select_apply, cmpf_apply, hz, mulf_apply, ho]
  show Scalar.select _ (y i) (Ideal.ofBits .f32 0x3F800000#32 * (Ideal.exp (select _ _ y i) - 1)) = elu (y i)
  rw [select_apply, cmpf_apply, hz]
  unfold elu
  rcases BitVec.eq_zero_or_eq_one (FloatOps.cmpf (F := Ideal) .ogt (y i) (Ideal.ofBits .f32 0x00000000#32)) with hc | hc
  · rw [hc, select_zero, select_zero, select_zero, Cert.LibSpellings.ofBits_one_f32, one_mul]
  · rw [hc, select_one, select_one]

end Cert.LibEluStage

end
-- ==== Proof.Joins.lean ====
/-
  The three places where the two programs spell one function differently, stated over arbitrary arrays.

  * The product: the kernel's row-tiled regions leave Σ_k X(a,k)·W(k,c); the reference applies the host's product over
    the same dimension numbers, which is that sum (product_host).
  * The bias and positive part: the kernel gives its region the bias as a [1,128] row made by reshaping the [128]
    vector, and the region leaves max (X(a,k) + row(0,k)) 0; the reference spreads the vector to a [1,128] row along
    axis 1, the row over the 100000 rows, adds, and takes the maximum with a constant 0 spread along no axis. The
    reshaped row and the spread row are one array, and both stages are the same entry by entry (epilogue_host).
  * The classifier: the kernel's region leaves Σ_k P(a,k)·W(k,c) + row(0,c) with the [1,2] row again a reshaped
    vector; the reference adds the vector spread to a row and over the 64 rows to the host's product (classifier_host).
  No hypothesis on the entries: none of these uses more than the definitions on the extended reals.
-/
import proofs.«140320_j86998857548336_1_alg».proof.Proof.LibReluDense
import proofs.«140320_j86998857548336_1_alg».proof.Proof.LibEluStage

noncomputable section

namespace Cert.Joins

open Idealize.ShloMosaic Idealize.ShloMosaic.ValueIdx
open Cert.LibReluDense (dense biasRelu)
open Cert.LibEluStage (affine)

/-- The whole product is the host's product over the plain dimension numbers. -/
theorem product_host (X : FVec Ideal ⟨2, ![100000, 128]⟩ .f32) (W : FVec Ideal ⟨2, ![128, 128]⟩ .f32) :
    dense 100000 128 128 X W = Host.dotGeneral (F := Ideal) (DotDims.plain 100000 128 128) none X W :=
  (Cert.LibReluDense.dense_of_dotGeneral 100000 128 128 X W).symm

/-- The stage on the reshaped bias row is the reference's add-and-maximum on the spread vector. -/
theorem epilogue_host (X : FVec Ideal ⟨2, ![100000, 128]⟩ .f32) (b : FVec Ideal ⟨1, ![128]⟩ .f32)
    (hsc : (⟨1, ![128]⟩ : Shape).ShapeCasts ⟨2, ![1, 128]⟩)
    (hb1 : (⟨1, ![128]⟩ : Shape).BroadcastsInDim ⟨2, ![1, 128]⟩ (![1] : Fin 1 → Fin 2))
    (hb : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2)) :
    biasRelu 100000 128 X (shapeCast ⟨2, ![1, 128]⟩ b hsc)
      = maximumf (addf X (broadcastInDim ⟨2, ![100000, 128]⟩ ![0, 1] hb (broadcastInDim ⟨2, ![1, 128]⟩ ![1] hb1 b)))
          (broadcastInDim ⟨2, ![100000, 128]⟩ ![] h0 (constant (F := Ideal) ⟨0, ![]⟩ .f32 0x00000000#32)) := by
  rw [Cert.LibReluDense.biasRelu_of_broadcastInDim, Cert.LibReluDense.row_reshape_eq_broadcast 128 b hsc hb1]

/-- The affine map on the reshaped bias row is the reference's product plus the spread vector. -/
theorem classifier_host (X : FVec Ideal ⟨2, ![64, 128]⟩ .f32) (W : FVec Ideal ⟨2, ![128, 2]⟩ .f32) (b : FVec Ideal ⟨1, ![2]⟩ .f32)
    (hsc : (⟨1, ![2]⟩ : Shape).ShapeCasts ⟨2, ![1, 2]⟩)
    (hb1 : (⟨1, ![2]⟩ : Shape).BroadcastsInDim ⟨2, ![1, 2]⟩ (![1] : Fin 1 → Fin 2))
    (hb : (⟨2, ![1, 2]⟩ : Shape).BroadcastsInDim ⟨2, ![64, 2]⟩ (![0, 1] : Fin 2 → Fin 2)) :
    affine 64 128 2 X W (shapeCast ⟨2, ![1, 2]⟩ b hsc)
      = addf (Host.dotGeneral (F := Ideal) (DotDims.plain 64 128 2) none X W)
          (broadcastInDim ⟨2, ![64, 2]⟩ ![0, 1] hb (broadcastInDim ⟨2, ![1, 2]⟩ ![1] hb1 b)) := by
  rw [Cert.LibEluStage.affine_of_dotGeneral, Cert.LibEluStage.row_cast_eq_bcast 2 b hsc hb1]

end Cert.Joins

end
-- ==== Proof.Layer1.lean ====
/-
  The first layer of the kernel program: x · W1 in a region, the gather, scaling and scatter-add on the host, and
  relu(· + b1) in a region.

  Each of the kernel program's buffers after these segments is identified with the reference's stage as a function
  of the launch arguments: the region's product with the reference's host product, the host operations with the
  same host operations on equal operands, and the region's bias-and-positive-part with the reference's add and relu.
  The edge lists, the normalised weights and the later layers' arguments are carried along unchanged: no region
  has them among its arrays and no host operation writes them.
-/
import proofs.«140320_j86998857548336_1_alg».proof.Proof.Prelude
import proofs.«140320_j86998857548336_1_alg».proof.Proof.Region0
import proofs.«140320_j86998857548336_1_alg».proof.Proof.Region1
import proofs.«140320_j86998857548336_1_alg».proof.Proof.Joins

set_option maxRecDepth 16384

noncomputable section

namespace Cert.KernelIdeal.Layer1

open Cert.KernelIdeal Cert.KernelIdeal.Gen
open Idealize.ShloMosaic Idealize.ShloMosaic.TcCoe Idealize.ShloMosaic.StableHlo

/-- What the one-pass rewriting leaves (operands under a concatenation's list): each operation's result at its own
    buffer is its function's value, at any other buffer what was there. -/
local macro "more_results" : tactic =>
  `(tactic| repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

variable (m : (ℓ : Loc nD τ sig) → Buf (Elt Ideal) ℓ) (ρ : Dev nD → PrngReg) (c : Dev nD)

open Cert.KernelIdeal.Prelude

/-! ## After the product region -/

/-- The layer's product, as the reference's. -/
theorem w4_v32 : W4 (F := Ideal) m ρ c (Proc.devRef .tc main_v32) = Cert.ReferenceIdeal.Read.val_main_v32 (F := Ideal) (m ((c : Thread nD τ).loc main_arg0)) (m ((c : Thread nD τ).loc main_arg4)) := by
  refine (W4_arr m ρ c 2).trans ((Cert.KernelIdeal.Region0.array_eq (V3 m ρ) c).trans ?_)
  show Cert.LibReluDense.dense 100000 128 128 (W3 m ρ c (Proc.devRef .tc main_arg0)) (W3 m ρ c (Proc.devRef .tc main_arg4)) = _
  rw [w3_arg0 m ρ c, w3_arg4 m ρ c]
  unfold Cert.ReferenceIdeal.Read.val_main_v32
  exact Cert.Joins.product_host _ _

theorem w4_v3 : W4 (F := Ideal) m ρ c (Proc.devRef .tc main_v3) = Cert.ReferenceIdeal.Read.val_main_v3 (F := Ideal) (m ((c : Thread nD τ).loc main_arg1)) :=
  (W4_of_ne m ρ c main_v3 (by decide)).trans (w3_v3 m ρ c)

theorem w4_v6 : W4 (F := Ideal) m ρ c (Proc.devRef .tc main_v6) = Cert.ReferenceIdeal.Read.val_main_v6 (F := Ideal) (m ((c : Thread nD τ).loc main_arg1)) :=
  (W4_of_ne m ρ c main_v6 (by decide)).trans (w3_v6 m ρ c)

theorem w4_v31 : W4 (F := Ideal) m ρ c (Proc.devRef .tc main_v31) = Cert.ReferenceIdeal.Read.val_main_v31 (F := Ideal) (m ((c : Thread nD τ).loc main_arg1)) (m ((c : Thread nD τ).loc main_arg2)) :=
  (W4_of_ne m ρ c main_v31 (by decide)).trans (w3_v31 m ρ c)

theorem w4_arg3 : W4 (F := Ideal) m ρ c (Proc.devRef .tc main_arg3) = (m ((c : Thread nD τ).loc main_arg3)) :=
  (W4_of_ne m ρ c main_arg3 (by decide)).trans (w3_arg3 m ρ c)

theorem w4_arg5 : W4 (F := Ideal) m ρ c (Proc.devRef .tc main_arg5) = (m ((c : Thread nD τ).loc main_arg5)) :=
  (W4_of_ne m ρ c main_arg5 (by decide)).trans (w3_arg5 m ρ c)

theorem w4_arg6 : W4 (F := Ideal) m ρ c (Proc.devRef .tc main_arg6) = (m ((c : Thread nD τ).loc main_arg6)) :=
  (W4_of_ne m ρ c main_arg6 (by decide)).trans (w3_arg6 m ρ c)

theorem w4_arg7 : W4 (F := Ideal) m ρ c (Proc.devRef .tc main_arg7) = (m ((c : Thread nD τ).loc main_arg7)) :=
  (W4_of_ne m ρ c main_arg7 (by decide)).trans (w3_arg7 m ρ c)

theorem w4_arg8 : W4 (F := Ideal) m ρ c (Proc.devRef .tc main_arg8) = (m ((c : Thread nD τ).loc main_arg8)) :=
  (W4_of_ne m ρ c main_arg8 (by decide)).trans (w3_arg8 m ρ c)

theorem w4_arg9 : W4 (F := Ideal) m ρ c (Proc.devRef .tc main_arg9) = (m ((c : Thread nD τ).loc main_arg9)) :=
  (W4_of_ne m ρ c main_arg9 (by decide)).trans (w3_arg9 m ρ c)

theorem w4_arg10 : W4 (F := Ideal) m ρ c (Proc.devRef .tc main_arg10) = (m ((c : Thread nD τ).loc main_arg10)) :=
  (W4_of_ne m ρ c main_arg10 (by decide)).trans (w3_arg10 m ρ c)

theorem w4_arg11 : W4 (F := Ideal) m ρ c (Proc.devRef .tc main_arg11) = (m ((c : Thread nD τ).loc main_arg11)) :=
  (W4_of_ne m ρ c main_arg11 (by decide)).trans (w3_arg11 m ρ c)

/-! ## After the gather, the scaling by the normalised weights and the scatter-add -/

/-- Each edge carries its source's row of the product times the edge's normalised weight to its destination, where the rows are summed: the same operations on equal operands. -/
theorem w5_v45 : W5 (F := Ideal) m ρ c (Proc.devRef .tc main_v45) = Cert.ReferenceIdeal.Read.val_main_v45 (F := Ideal) (m ((c : Thread nD τ).loc main_arg0)) (m ((c : Thread nD τ).loc main_arg1)) (m ((c : Thread nD τ).loc main_arg2)) (m ((c : Thread nD τ).loc main_arg4)) := by
  have h_v32 := w4_v32 m ρ c
  have h_v3 := w4_v3 m ρ c
  have h_v6 := w4_v6 m ρ c
  have h_v31 := w4_v31 m ρ c
  show StableHlo.after hostOps1 (W4 m ρ c) (Proc.devRef .tc main_v45) = _
  generalize W4 (F := Ideal) m ρ c = V at h_v32 h_v3 h_v6 h_v31 ⊢
  after_results_simp
  more_results
  rw [h_v32, h_v3, h_v6, h_v31]
  simp only [Cert.ReferenceIdeal.Read.val_main_c_6, Cert.ReferenceIdeal.Read.val_main_v33, Cert.ReferenceIdeal.Read.val_main_v34, Cert.ReferenceIdeal.Read.val_main_c_7, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_cst_8, Cert.ReferenceIdeal.Read.val_main_v43, Cert.ReferenceIdeal.Read.val_main_v44, Cert.ReferenceIdeal.Read.val_main_v45]
  all_goals rfl

/-- The bias as a one-row array: the vector reshaped. -/
theorem w5_v46 : W5 (F := Ideal) m ρ c (Proc.devRef .tc main_v46) = shapeCast S1x128 (m ((c : Thread nD τ).loc main_arg5)) shapeCasts_S128_S1x128 := by
  have h_arg5 := w4_arg5 m ρ c
  show StableHlo.after hostOps1 (W4 m ρ c) (Proc.devRef .tc main_v46) = _
  generalize W4 (F := Ideal) m ρ c = V at h_arg5 ⊢
  after_results_simp
  more_results
  rw [h_arg5]
  all_goals rfl

theorem w5_v3 : W5 (F := Ideal) m ρ c (Proc.devRef .tc main_v3) = Cert.ReferenceIdeal.Read.val_main_v3 (F := Ideal) (m ((c : Thread nD τ).loc main_arg1)) := by
  have h := w4_v3 m ρ c
  show StableHlo.after hostOps1 (W4 m ρ c) (Proc.devRef .tc main_v3) = _
  generalize W4 (F := Ideal) m ρ c = V at h ⊢
  after_results_simp
  exact h

theorem w5_v6 : W5 (F := Ideal) m ρ c (Proc.devRef .tc main_v6) = Cert.ReferenceIdeal.Read.val_main_v6 (F := Ideal) (m ((c : Thread nD τ).loc main_arg1)) := by
  have h := w4_v6 m ρ c
  show StableHlo.after hostOps1 (W4 m ρ c) (Proc.devRef .tc main_v6) = _
  generalize W4 (F := Ideal) m ρ c = V at h ⊢
  after_results_simp
  exact h

theorem w5_v31 : W5 (F := Ideal) m ρ c (Proc.devRef .tc main_v31) = Cert.ReferenceIdeal.Read.val_main_v31 (F := Ideal) (m ((c : Thread nD τ).loc main_arg1)) (m ((c : Thread nD τ).loc main_arg2)) := by
  have h := w4_v31 m ρ c
  show StableHlo.after hostOps1 (W4 m ρ c) (Proc.devRef .tc main_v31) = _
  generalize W4 (F := Ideal) m ρ c = V at h ⊢
  after_results_simp
  exact h

theorem w5_arg3 : W5 (F := Ideal) m ρ c (Proc.devRef .tc main_arg3) = (m ((c : Thread nD τ).loc main_arg3)) := by
  have h := w4_arg3 m ρ c
  show StableHlo.after hostOps1 (W4 m ρ c) (Proc.devRef .tc main_arg3) = _
  generalize W4 (F := Ideal) m ρ c = V at h ⊢
  after_results_simp
  exact h

theorem w5_arg6 : W5 (F := Ideal) m ρ c (Proc.devRef .tc main_arg6) = (m ((c : Thread nD τ).loc main_arg6)) := by
  have h := w4_arg6 m ρ c
  show StableHlo.after hostOps1 (W4 m ρ c) (Proc.devRef .tc main_arg6) = _
  generalize W4 (F := Ideal) m ρ c = V at h ⊢
  after_results_simp
  exact h

theorem w5_arg7 : W5 (F := Ideal) m ρ c (Proc.devRef .tc main_arg7) = (m ((c : Thread nD τ).loc main_arg7)) := by
  have h := w4_arg7 m ρ c
  show StableHlo.after hostOps1 (W4 m ρ c) (Proc.devRef .tc main_arg7) = _
  generalize W4 (F := Ideal) m ρ c = V at h ⊢
  after_results_simp
  exact h

theorem w5_arg8 : W5 (F := Ideal) m ρ c (Proc.devRef .tc main_arg8) = (m ((c : Thread nD τ).loc main_arg8)) := by
  have h := w4_arg8 m ρ c
  show StableHlo.after hostOps1 (W4 m ρ c) (Proc.devRef .tc main_arg8) = _
  generalize W4 (F := Ideal) m ρ c = V at h ⊢
  after_results_simp
  exact h

theorem w5_arg9 : W5 (F := Ideal) m ρ c (Proc.devRef .tc main_arg9) = (m ((c : Thread nD τ).loc main_arg9)) := by
  have h := w4_arg9 m ρ c
  show StableHlo.after hostOps1 (W4 m ρ c) (Proc.devRef .tc main_arg9) = _
  generalize W4 (F := Ideal) m ρ c = V at h ⊢
  after_results_simp
  exact h

theorem w5_arg10 : W5 (F := Ideal) m ρ c (Proc.devRef .tc main_arg10) = (m ((c : Thread nD τ).loc main_arg10)) := by
  have h := w4_arg10 m ρ c
  show StableHlo.after hostOps1 (W4 m ρ c) (Proc.devRef .tc main_arg10) = _
  generalize W4 (F := Ideal) m ρ c = V at h ⊢
  after_results_simp
  exact h

theorem w5_arg11 : W5 (F := Ideal) m ρ c (Proc.devRef .tc main_arg11) = (m ((c : Thread nD τ).loc main_arg11)) := by
  have h := w4_arg11 m ρ c
  show StableHlo.after hostOps1 (W4 m ρ c) (Proc.devRef .tc main_arg11) = _
  generalize W4 (F := Ideal) m ρ c = V at h ⊢
  after_results_simp
  exact h

/-! ## After the bias-and-positive-part region -/

/-- The layer's output, as the reference's add, then relu. -/
theorem w6_v47 : W6 (F := Ideal) m ρ c (Proc.devRef .tc main_v47) = Cert.ReferenceIdeal.Read.val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W6_arr m ρ c 2).trans ((Cert.KernelIdeal.Region1.array_eq (V5 m ρ) c).trans ?_)
  show Cert.LibReluDense.biasRelu 100000 128 (W5 m ρ c (Proc.devRef .tc main_v45)) (W5 m ρ c (Proc.devRef .tc main_v46)) = _
  rw [w5_v45 m ρ c, w5_v46 m ρ c]
  simp only [Cert.ReferenceIdeal.Read.val_main_v49, Cert.ReferenceIdeal.Read.val_main_v48, Cert.ReferenceIdeal.Read.val_main_v47, Cert.ReferenceIdeal.Read.val_main_v46, Cert.ReferenceIdeal.Read.val_main_call1_v0, Cert.ReferenceIdeal.Read.val_main_call1_cst]
  exact Cert.Joins.epilogue_host _ _ _ _ _ _

theorem w6_v3 : W6 (F := Ideal) m ρ c (Proc.devRef .tc main_v3) = Cert.ReferenceIdeal.Read.val_main_v3 (F := Ideal) (m ((c : Thread nD τ).loc main_arg1)) :=
  (W6_of_ne m ρ c main_v3 (by decide)).trans (w5_v3 m ρ c)

theorem w6_v6 : W6 (F := Ideal) m ρ c (Proc.devRef .tc main_v6) = Cert.ReferenceIdeal.Read.val_main_v6 (F := Ideal) (m ((c : Thread nD τ).loc main_arg1)) :=
  (W6_of_ne m ρ c main_v6 (by decide)).trans (w5_v6 m ρ c)

theorem w6_v31 : W6 (F := Ideal) m ρ c (Proc.devRef .tc main_v31) = Cert.ReferenceIdeal.Read.val_main_v31 (F := Ideal) (m ((c : Thread nD τ).loc main_arg1)) (m ((c : Thread nD τ).loc main_arg2)) :=
  (W6_of_ne m ρ c main_v31 (by decide)).trans (w5_v31 m ρ c)

theorem w6_arg3 : W6 (F := Ideal) m ρ c (Proc.devRef .tc main_arg3) = (m ((c : Thread nD τ).loc main_arg3)) :=
  (W6_of_ne m ρ c main_arg3 (by decide)).trans (w5_arg3 m ρ c)

theorem w6_arg6 : W6 (F := Ideal) m ρ c (Proc.devRef .tc main_arg6) = (m ((c : Thread nD τ).loc main_arg6)) :=
  (W6_of_ne m ρ c main_arg6 (by decide)).trans (w5_arg6 m ρ c)

theorem w6_arg7 : W6 (F := Ideal) m ρ c (Proc.devRef .tc main_arg7) = (m ((c : Thread nD τ).loc main_arg7)) :=
  (W6_of_ne m ρ c main_arg7 (by decide)).trans (w5_arg7 m ρ c)

theorem w6_arg8 : W6 (F := Ideal) m ρ c (Proc.devRef .tc main_arg8) = (m ((c : Thread nD τ).loc main_arg8)) :=
  (W6_of_ne m ρ c main_arg8 (by decide)).trans (w5_arg8 m ρ c)

theorem w6_arg9 : W6 (F := Ideal) m ρ c (Proc.devRef .tc main_arg9) = (m ((c : Thread nD τ).loc main_arg9)) :=
  (W6_of_ne m ρ c main_arg9 (by decide)).trans (w5_arg9 m ρ c)

theorem w6_arg10 : W6 (F := Ideal) m ρ c (Proc.devRef .tc main_arg10) = (m ((c : Thread nD τ).loc main_arg10)) :=
  (W6_of_ne m ρ c main_arg10 (by decide)).trans (w5_arg10 m ρ c)

theorem w6_arg11 : W6 (F := Ideal) m ρ c (Proc.devRef .tc main_arg11) = (m ((c : Thread nD τ).loc main_arg11)) :=
  (W6_of_ne m ρ c main_arg11 (by decide)).trans (w5_arg11 m ρ c)

end Cert.KernelIdeal.Layer1

end
-- ==== Proof.Region2.lean ====
/-
  Region 2 of the kernel program (the second layer's h · W2): the product of a 100000×128 array with a 128×128 weight, computed in twenty
  tiles of 5000 rows.

  At grid point t the body sees rows 5000·t … 5000·t + 4999 of the left array and the whole weight, and stores
  their product — a matrix unit's product into a zero accumulator, the operands first narrowed to a 16-bit float
  format, which on the extended reals is the identity — into the same rows of the output. A row of a product
  depends on the left array only through the same row, so each tile is that block of rows of the whole product;
  the twenty tiles cover the 100000 rows; hence the output array ends as the whole product
      (a, c) ↦ Σ_{k<128} X(a,k) · W(k,c)
  of the two arrays as the region finds them. Everything is stated at a parameter V, the buffer contents when the
  region is entered.
-/
import proofs.«140320_j86998857548336_1_alg».proof.Proof.Gen.KernelIdeal.Frame
import proofs.«140320_j86998857548336_1_alg».proof.Proof.LibReluDense
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat Cfg Window)
open Cert.LibReluDense (dense)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the whole product of the two input arrays. -/
abbrev product (a0 : S100000x128.Idx → Elt Ideal .f32) (a1 : S128x128.Idx → Elt Ideal .f32) : S100000x128.Idx → Elt Ideal .f32 :=
  dense 100000 128 128 a0 a1

/-- The body's arithmetic on a tile is the product of the tile with the weight. -/
theorem tile_product (x0 : Vec Ideal S5000x128 .f32) (x1 : Vec Ideal S128x128 .f32) :
    k2_pay1 (F := Ideal) x0 x1 = dense 5000 128 128 x0 x1 := by
  funext j
  show matmul (F := Ideal) (DotDims.plain 5000 128 128) none
      (truncf .bf16 (shapeCast S5000x128 x0 shapeCasts_S5000x128_S5000x128) bitsLt_bf16_f32) (truncf .bf16 x1 bitsLt_bf16_f32)
      (constant ⟨2, ![5000, 128]⟩ .f32 0x00000000#32) j = _
  rw [shapeCast_self]
  exact Cert.LibPlainDot.matmul_plain 5000 128 128 none _ _ j

/-- Row j of a tile's product is row i of the whole product when the tile's row j is the whole's row i, the tile's
    weight is the whole weight, and the columns agree. -/
theorem tile_of_whole (X : FVec Ideal ⟨2, ![100000, 128]⟩ .f32) (W w : FVec Ideal ⟨2, ![128, 128]⟩ .f32)
    (x : FVec Ideal ⟨2, ![5000, 128]⟩ .f32) (j : (⟨2, ![5000, 128]⟩ : Shape).Idx) (i : (⟨2, ![100000, 128]⟩ : Shape).Idx)
    (hx : ∀ k : Fin 128, x (ix2 (j 0) k) = X (ix2 (i 0) k)) (hw : ∀ y, w y = W y) (hc : (j 1).val = (i 1).val) :
    dense 5000 128 128 x w j = dense 100000 128 128 X W i := by
  obtain rfl : w = W := funext hw
  exact Cert.LibReluDense.dense_block 100000 128 128 5000 X x w i j hx hc

/-- The index maps over the twenty grid points: the left array's and the output's block row is the point, their
    block column 0; the weight's block is always the first. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays as the region finds them. -/
theorem flushed_eq (c : Dev nD) (t : Fin cfg2.N) :
    (dat2 V c).flushed 2 t = ((cfg2.win 2).blk t).view.read (Elt Ideal) (product (V c main_v47) (V c main_arg6)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  rw [tile_product]
  obtain ⟨e0, e1, e2, e3, e4, e5⟩ := index_maps t
  funext j
  show dense 5000 128 128 (iblk2 V c 0 t) (iblk2 V c 1 t) j
    = dense 100000 128 128 (V c main_v47) (V c main_arg6) (((cfg2.win 2).blk t).view.emb j)
  refine tile_of_whole (V c main_v47) (V c main_arg6) (iblk2 V c 1 t) (iblk2 V c 0 t) j (((cfg2.win 2).blk t).view.emb j)
    (fun k => ?_) (fun y => ?_) ?_
  · show V c main_v47 (((cfg2.win 0).blk t).view.emb (ix2 (j 0) k)) = V c main_v47 (ix2 ((((cfg2.win 2).blk t).view.emb j) 0) k)
    refine congrArg (V c main_v47) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg6 (((cfg2.win 1).blk t).view.emb y) = V c main_arg6 y
    refine congrArg (V c main_arg6) (funext fun a => Fin.ext ?_)
    match a with
    | ⟨0, _⟩ =>
      show win2_1.index t (0 : Fin 2) * 128 + 1 * (y 0).val = (y 0).val
      omega
    | ⟨1, _⟩ =>
      show win2_1.index t (1 : Fin 2) * 128 + 1 * (y 1).val = (y 1).val
      omega
  · show (j 1).val = win2_2.index t (1 : Fin 2) * 128 + 1 * (j 1).val
    omega

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- The twenty blocks cover the output array: row r lies in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0, e1, e2, e3, e4, e5⟩ := index_maps ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- The output array after the region: the whole product of the two input arrays as the region finds them. -/
theorem array_eq (c : Dev nD) :
    (dat2 V c).arrAt 2 cfg2.N = product (V c main_v47) (V c main_arg6) :=
  (dat2 V c).arrAt_eq_of_cover 2 _ (fun t _ => flushed_eq V c t) cover

end Cert.KernelIdeal.Region2

end
-- ==== Proof.Region3.lean ====
/-
  Region 3 of the kernel program (the second layer's relu(agg + b2)): a bias row added to a 100000×128 array and the positive part taken,
  in twenty tiles of 5000 rows.

  At grid point t the body sees rows 5000·t … 5000·t + 4999 of the array and the whole one-row bias, and stores
      (r, k) ↦ max (x(r,k) + b(0,k)) 0
  into the same rows of the output. An entry of that stage depends on the array only through the same entry, so
  each tile is that block of rows of the stage of the whole array; the twenty tiles cover the 100000 rows; hence
  the output array ends as the stage of the whole array as the region finds it. Everything is stated at a parameter
  V, the buffer contents when the region is entered.
-/
import proofs.«140320_j86998857548336_1_alg».proof.Proof.Gen.KernelIdeal.Frame
import proofs.«140320_j86998857548336_1_alg».proof.Proof.LibReluDense
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.ShloMosaic.Pipeline (Dat Cfg Window)
open Cert.LibReluDense (biasRelu)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the array plus the bias row, cut off below at 0. -/
abbrev shifted (a0 : S100000x128.Idx → Elt Ideal .f32) (a1 : S1x128.Idx → Elt Ideal .f32) : S100000x128.Idx → Elt Ideal .f32 :=
  biasRelu 100000 128 a0 a1

/-- The body's arithmetic on a tile is that stage of the tile. -/
theorem tile_stage (x0 : Vec Ideal S5000x128 .f32) (x1 : Vec Ideal S1x128 .f32) :
    k3_pay1 (F := Ideal) x0 x1 = biasRelu 5000 128 x0 x1 := by
  unfold k3_pay1
  exact Cert.LibReluDense.biasRelu_of_broadcastTo 5000 128 x0 x1 shapeCasts_S5000x128_S5000x128 shapeCasts_S1x128_S1x128
    broadcasts_S1x128_S5000x128

/-- Entry j of a tile's stage is entry i of the whole's when the tile's entry j is the whole's entry i, the tile's bias
    row is the whole row, and the columns agree. -/
theorem tile_of_whole (X : FVec Ideal ⟨2, ![100000, 128]⟩ .f32) (B b : FVec Ideal ⟨2, ![1, 128]⟩ .f32)
    (x : FVec Ideal ⟨2, ![5000, 128]⟩ .f32) (j : (⟨2, ![5000, 128]⟩ : Shape).Idx) (i : (⟨2, ![100000, 128]⟩ : Shape).Idx)
    (hx : x j = X i) (hb : ∀ y, b y = B y) (hc : (j 1).val = (i 1).val) :
    biasRelu 5000 128 x b j = biasRelu 100000 128 X B i := by
  obtain rfl : b = B := funext hb
  exact Cert.LibReluDense.biasRelu_block 100000 128 5000 X x b i j hx hc

/-- The index maps over the twenty grid points: the array's and the output's block row is the point, their block
    column 0; the bias row's block is always the first. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the stage of the whole array as the region finds it. -/
theorem flushed_eq (c : Dev nD) (t : Fin cfg3.N) :
    (dat3 V c).flushed 2 t = ((cfg3.win 2).blk t).view.read (Elt Ideal) (shifted (V c main_v61) (V c main_v62)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  rw [tile_stage]
  obtain ⟨e0, e1, e2, e3, e4, e5⟩ := index_maps t
  funext j
  show biasRelu 5000 128 (iblk3 V c 0 t) (iblk3 V c 1 t) j
    = biasRelu 100000 128 (V c main_v61) (V c main_v62) (((cfg3.win 2).blk t).view.emb j)
  refine tile_of_whole (V c main_v61) (V c main_v62) (iblk3 V c 1 t) (iblk3 V c 0 t) j (((cfg3.win 2).blk t).view.emb j)
    ?_ (fun y => ?_) ?_
  · show V c main_v61 (((cfg3.win 0).blk t).view.emb j) = V c main_v61 (((cfg3.win 2).blk t).view.emb j)
    refine congrArg (V c main_v61) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * (j 1).val = win3_2.index t (1 : Fin 2) * 128 + 1 * (j 1).val
      omega
  · show V c main_v62 (((cfg3.win 1).blk t).view.emb y) = V c main_v62 y
    refine congrArg (V c main_v62) (funext fun a => Fin.ext ?_)
    match a with
    | ⟨0, _⟩ =>
      show win3_1.index t (0 : Fin 2) * 1 + 1 * (y 0).val = (y 0).val
      omega
    | ⟨1, _⟩ =>
      show win3_1.index t (1 : Fin 2) * 128 + 1 * (y 1).val = (y 1).val
      omega
  · show (j 1).val = win3_2.index t (1 : Fin 2) * 128 + 1 * (j 1).val
    omega

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- The twenty blocks cover the output array: row r lies in the block of point r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e0, e1, e2, e3, e4, e5⟩ := index_maps ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    have e4' : win3_2.index ⟨(i 0).val / 5000, ht⟩ (0 : Fin 2) = (i 0).val / 5000 := e4
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- The output array after the region: the stage of the whole array and the bias row as the region finds them. -/
theorem array_eq (c : Dev nD) :
    (dat3 V c).arrAt 2 cfg3.N = shifted (V c main_v61) (V c main_v62) :=
  (dat3 V c).arrAt_eq_of_cover 2 _ (fun t _ => flushed_eq V c t) cover

end Cert.KernelIdeal.Region3

end
-- ==== Proof.Layer2.lean ====
/-
  The second layer of the kernel program: h · W2 in a region, the gather, scaling and scatter-add on the host, and
  relu(· + b2) in a region.

  Each of the kernel program's buffers after these segments is identified with the reference's stage as a function
  of the launch arguments: the region's product with the reference's host product of the previous layer's output,
  the host operations with the same host operations on equal operands, and the region's bias-and-positive-part
  with the reference's add and relu. The edge lists, the normalised weights and the later arguments are carried
  along unchanged: no region has them among its arrays and no host operation writes them.
-/
import proofs.«140320_j86998857548336_1_alg».proof.Proof.Layer1
import proofs.«140320_j86998857548336_1_alg».proof.Proof.Region2
import proofs.«140320_j86998857548336_1_alg».proof.Proof.Region3
import proofs.«140320_j86998857548336_1_alg».proof.Proof.Joins

set_option maxRecDepth 16384

noncomputable section

namespace Cert.KernelIdeal.Layer2

open Cert.KernelIdeal Cert.KernelIdeal.Gen
open Idealize.ShloMosaic Idealize.ShloMosaic.TcCoe Idealize.ShloMosaic.StableHlo

/-- What the one-pass rewriting leaves (operands under a concatenation's list): each operation's result at its own
    buffer is its function's value, at any other buffer what was there. -/
local macro "more_results" : tactic =>
  `(tactic| repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

variable (m : (ℓ : Loc nD τ sig) → Buf (Elt Ideal) ℓ) (ρ : Dev nD → PrngReg) (c : Dev nD)

open Cert.KernelIdeal.Prelude Cert.KernelIdeal.Layer1

/-! ## After the product region -/

/-- The layer's product, as the reference's. -/
theorem w7_v48 : W7 (F := Ideal) m ρ c (Proc.devRef .tc main_v48) = Cert.ReferenceIdeal.Read.val_main_v50 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W7_arr m ρ c 2).trans ((Cert.KernelIdeal.Region2.array_eq (V6 m ρ) c).trans ?_)
  show Cert.LibReluDense.dense 100000 128 128 (W6 m ρ c (Proc.devRef .tc main_v47)) (W6 m ρ c (Proc.devRef .tc main_arg6)) = _
  rw [w6_v47 m ρ c, w6_arg6 m ρ c]
  unfold Cert.ReferenceIdeal.Read.val_main_v50
  exact Cert.Joins.product_host _ _

theorem w7_v3 : W7 (F := Ideal) m ρ c (Proc.devRef .tc main_v3) = Cert.ReferenceIdeal.Read.val_main_v3 (F := Ideal) (m ((c : Thread nD τ).loc main_arg1)) :=
  (W7_of_ne m ρ c main_v3 (by decide)).trans (w6_v3 m ρ c)

theorem w7_v6 : W7 (F := Ideal) m ρ c (Proc.devRef .tc main_v6) = Cert.ReferenceIdeal.Read.val_main_v6 (F := Ideal) (m ((c : Thread nD τ).loc main_arg1)) :=
  (W7_of_ne m ρ c main_v6 (by decide)).trans (w6_v6 m ρ c)

theorem w7_v31 : W7 (F := Ideal) m ρ c (Proc.devRef .tc main_v31) = Cert.ReferenceIdeal.Read.val_main_v31 (F := Ideal) (m ((c : Thread nD τ).loc main_arg1)) (m ((c : Thread nD τ).loc main_arg2)) :=
  (W7_of_ne m ρ c main_v31 (by decide)).trans (w6_v31 m ρ c)

theorem w7_arg3 : W7 (F := Ideal) m ρ c (Proc.devRef .tc main_arg3) = (m ((c : Thread nD τ).loc main_arg3)) :=
  (W7_of_ne m ρ c main_arg3 (by decide)).trans (w6_arg3 m ρ c)

theorem w7_arg7 : W7 (F := Ideal) m ρ c (Proc.devRef .tc main_arg7) = (m ((c : Thread nD τ).loc main_arg7)) :=
  (W7_of_ne m ρ c main_arg7 (by decide)).trans (w6_arg7 m ρ c)

theorem w7_arg8 : W7 (F := Ideal) m ρ c (Proc.devRef .tc main_arg8) = (m ((c : Thread nD τ).loc main_arg8)) :=
  (W7_of_ne m ρ c main_arg8 (by decide)).trans (w6_arg8 m ρ c)

theorem w7_arg9 : W7 (F := Ideal) m ρ c (Proc.devRef .tc main_arg9) = (m ((c : Thread nD τ).loc main_arg9)) :=
  (W7_of_ne m ρ c main_arg9 (by decide)).trans (w6_arg9 m ρ c)

theorem w7_arg10 : W7 (F := Ideal) m ρ c (Proc.devRef .tc main_arg10) = (m ((c : Thread nD τ).loc main_arg10)) :=
  (W7_of_ne m ρ c main_arg10 (by decide)).trans (w6_arg10 m ρ c)

theorem w7_arg11 : W7 (F := Ideal) m ρ c (Proc.devRef .tc main_arg11) = (m ((c : Thread nD τ).loc main_arg11)) :=
  (W7_of_ne m ρ c main_arg11 (by decide)).trans (w6_arg11 m ρ c)

/-! ## After the gather, the scaling by the normalised weights and the scatter-add -/

/-- Each edge carries its source's row of the product times the edge's normalised weight to its destination, where the rows are summed: the same operations on equal operands. -/
theorem w8_v61 : W8 (F := Ideal) m ρ c (Proc.devRef .tc main_v61) = Cert.ReferenceIdeal.Read.val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have h_v48 := w7_v48 m ρ c
  have h_v3 := w7_v3 m ρ c
  have h_v6 := w7_v6 m ρ c
  have h_v31 := w7_v31 m ρ c
  show StableHlo.after hostOps3 (W7 m ρ c) (Proc.devRef .tc main_v61) = _
  generalize W7 (F := Ideal) m ρ c = V at h_v48 h_v3 h_v6 h_v31 ⊢
  after_results_simp
  more_results
  rw [h_v48, h_v3, h_v6, h_v31]
  simp only [Cert.ReferenceIdeal.Read.val_main_c_9, Cert.ReferenceIdeal.Read.val_main_v51, Cert.ReferenceIdeal.Read.val_main_v52, Cert.ReferenceIdeal.Read.val_main_c_10, Cert.ReferenceIdeal.Read.val_main_v53, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_cst_11, Cert.ReferenceIdeal.Read.val_main_v61, Cert.ReferenceIdeal.Read.val_main_v62, Cert.ReferenceIdeal.Read.val_main_v63]
  all_goals rfl

/-- The bias as a one-row array: the vector reshaped. -/
theorem w8_v62 : W8 (F := Ideal) m ρ c (Proc.devRef .tc main_v62) = shapeCast S1x128 (m ((c : Thread nD τ).loc main_arg7)) shapeCasts_S128_S1x128 := by
  have h_arg7 := w7_arg7 m ρ c
  show StableHlo.after hostOps3 (W7 m ρ c) (Proc.devRef .tc main_v62) = _
  generalize W7 (F := Ideal) m ρ c = V at h_arg7 ⊢
  after_results_simp
  more_results
  rw [h_arg7]
  all_goals rfl

theorem w8_v3 : W8 (F := Ideal) m ρ c (Proc.devRef .tc main_v3) = Cert.ReferenceIdeal.Read.val_main_v3 (F := Ideal) (m ((c : Thread nD τ).loc main_arg1)) := by
  have h := w7_v3 m ρ c
  show StableHlo.after hostOps3 (W7 m ρ c) (Proc.devRef .tc main_v3) = _
  generalize W7 (F := Ideal) m ρ c = V at h ⊢
  after_results_simp
  exact h

theorem w8_v6 : W8 (F := Ideal) m ρ c (Proc.devRef .tc main_v6) = Cert.ReferenceIdeal.Read.val_main_v6 (F := Ideal) (m ((c : Thread nD τ).loc main_arg1)) := by
  have h := w7_v6 m ρ c
  show StableHlo.after hostOps3 (W7 m ρ c) (Proc.devRef .tc main_v6) = _
  generalize W7 (F := Ideal) m ρ c = V at h ⊢
  after_results_simp
  exact h

theorem w8_v31 : W8 (F := Ideal) m ρ c (Proc.devRef .tc main_v31) = Cert.ReferenceIdeal.Read.val_main_v31 (F := Ideal) (m ((c : Thread nD τ).loc main_arg1)) (m ((c : Thread nD τ).loc main_arg2)) := by
  have h := w7_v31 m ρ c
  show StableHlo.after hostOps3 (W7 m ρ c) (Proc.devRef .tc main_v31) = _
  generalize W7 (F := Ideal) m ρ c = V at h ⊢
  after_results_simp
  exact h

theorem w8_arg3 : W8 (F := Ideal) m ρ c (Proc.devRef .tc main_arg3) = (m ((c : Thread nD τ).loc main_arg3)) := by
  have h := w7_arg3 m ρ c
  show StableHlo.after hostOps3 (W7 m ρ c) (Proc.devRef .tc main_arg3) = _
  generalize W7 (F := Ideal) m ρ c = V at h ⊢
  after_results_simp
  exact h

theorem w8_arg8 : W8 (F := Ideal) m ρ c (Proc.devRef .tc main_arg8) = (m ((c : Thread nD τ).loc main_arg8)) := by
  have h := w7_arg8 m ρ c
  show StableHlo.after hostOps3 (W7 m ρ c) (Proc.devRef .tc main_arg8) = _
  generalize W7 (F := Ideal) m ρ c = V at h ⊢
  after_results_simp
  exact h

theorem w8_arg9 : W8 (F := Ideal) m ρ c (Proc.devRef .tc main_arg9) = (m ((c : Thread nD τ).loc main_arg9)) := by
  have h := w7_arg9 m ρ c
  show StableHlo.after hostOps3 (W7 m ρ c) (Proc.devRef .tc main_arg9) = _
  generalize W7 (F := Ideal) m ρ c = V at h ⊢
  after_results_simp
  exact h

theorem w8_arg10 : W8 (F := Ideal) m ρ c (Proc.devRef .tc main_arg10) = (m ((c : Thread nD τ).loc main_arg10)) := by
  have h := w7_arg10 m ρ c
  show StableHlo.after hostOps3 (W7 m ρ c) (Proc.devRef .tc main_arg10) = _
  generalize W7 (F := Ideal) m ρ c = V at h ⊢
  after_results_simp
  exact h

theorem w8_arg11 : W8 (F := Ideal) m ρ c (Proc.devRef .tc main_arg11) = (m ((c : Thread nD τ).loc main_arg11)) := by
  have h := w7_arg11 m ρ c
  show StableHlo.after hostOps3 (W7 m ρ c) (Proc.devRef .tc main_arg11) = _
  generalize W7 (F := Ideal) m ρ c = V at h ⊢
  after_results_simp
  exact h

/-! ## After the bias-and-positive-part region -/

/-- The layer's output, as the reference's add, then relu. -/
theorem w9_v63 : W9 (F := Ideal) m ρ c (Proc.devRef .tc main_v63) = Cert.ReferenceIdeal.Read.val_main_v67 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W9_arr m ρ c 2).trans ((Cert.KernelIdeal.Region3.array_eq (V8 m ρ) c).trans ?_)
  show Cert.LibReluDense.biasRelu 100000 128 (W8 m ρ c (Proc.devRef .tc main_v61)) (W8 m ρ c (Proc.devRef .tc main_v62)) = _
  rw [w8_v61 m ρ c, w8_v62 m ρ c]
  simp only [Cert.ReferenceIdeal.Read.val_main_v67, Cert.ReferenceIdeal.Read.val_main_v66, Cert.ReferenceIdeal.Read.val_main_v65, Cert.ReferenceIdeal.Read.val_main_v64, Cert.ReferenceIdeal.Read.val_main_call2_v0, Cert.ReferenceIdeal.Read.val_main_call2_cst]
  exact Cert.Joins.epilogue_host _ _ _ _ _ _

theorem w9_v3 : W9 (F := Ideal) m ρ c (Proc.devRef .tc main_v3) = Cert.ReferenceIdeal.Read.val_main_v3 (F := Ideal) (m ((c : Thread nD τ).loc main_arg1)) :=
  (W9_of_ne m ρ c main_v3 (by decide)).trans (w8_v3 m ρ c)

theorem w9_v6 : W9 (F := Ideal) m ρ c (Proc.devRef .tc main_v6) = Cert.ReferenceIdeal.Read.val_main_v6 (F := Ideal) (m ((c : Thread nD τ).loc main_arg1)) :=
  (W9_of_ne m ρ c main_v6 (by decide)).trans (w8_v6 m ρ c)

theorem w9_v31 : W9 (F := Ideal) m ρ c (Proc.devRef .tc main_v31) = Cert.ReferenceIdeal.Read.val_main_v31 (F := Ideal) (m ((c : Thread nD τ).loc main_arg1)) (m ((c : Thread nD τ).loc main_arg2)) :=
  (W9_of_ne m ρ c main_v31 (by decide)).trans (w8_v31 m ρ c)

theorem w9_arg3 : W9 (F := Ideal) m ρ c (Proc.devRef .tc main_arg3) = (m ((c : Thread nD τ).loc main_arg3)) :=
  (W9_of_ne m ρ c main_arg3 (by decide)).trans (w8_arg3 m ρ c)

theorem w9_arg8 : W9 (F := Ideal) m ρ c (Proc.devRef .tc main_arg8) = (m ((c : Thread nD τ).loc main_arg8)) :=
  (W9_of_ne m ρ c main_arg8 (by decide)).trans (w8_arg8 m ρ c)

theorem w9_arg9 : W9 (F := Ideal) m ρ c (Proc.devRef .tc main_arg9) = (m ((c : Thread nD τ).loc main_arg9)) :=
  (W9_of_ne m ρ c main_arg9 (by decide)).trans (w8_arg9 m ρ c)

theorem w9_arg10 : W9 (F := Ideal) m ρ c (Proc.devRef .tc main_arg10) = (m ((c : Thread nD τ).loc main_arg10)) :=
  (W9_of_ne m ρ c main_arg10 (by decide)).trans (w8_arg10 m ρ c)

theorem w9_arg11 : W9 (F := Ideal) m ρ c (Proc.devRef .tc main_arg11) = (m ((c : Thread nD τ).loc main_arg11)) :=
  (W9_of_ne m ρ c main_arg11 (by decide)).trans (w8_arg11 m ρ c)

end Cert.KernelIdeal.Layer2

end
-- ==== Proof.Region4.lean ====
/-
  Region 4 of the kernel program (the third layer's h · W3): the product of a 100000×128 array with a 128×128 weight, computed in twenty
  tiles of 5000 rows.

  At grid point t the body sees rows 5000·t … 5000·t + 4999 of the left array and the whole weight, and stores
  their product — a matrix unit's product into a zero accumulator, the operands first narrowed to a 16-bit float
  format, which on the extended reals is the identity — into the same rows of the output. A row of a product
  depends on the left array only through the same row, so each tile is that block of rows of the whole product;
  the twenty tiles cover the 100000 rows; hence the output array ends as the whole product
      (a, c) ↦ Σ_{k<128} X(a,k) · W(k,c)
  of the two arrays as the region finds them. Everything is stated at a parameter V, the buffer contents when the
  region is entered.
-/
import proofs.«140320_j86998857548336_1_alg».proof.Proof.Gen.KernelIdeal.Frame
import proofs.«140320_j86998857548336_1_alg».proof.Proof.LibReluDense
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.ShloMosaic.Pipeline (Dat Cfg Window)
open Cert.LibReluDense (dense)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the whole product of the two input arrays. -/
abbrev product (a0 : S100000x128.Idx → Elt Ideal .f32) (a1 : S128x128.Idx → Elt Ideal .f32) : S100000x128.Idx → Elt Ideal .f32 :=
  dense 100000 128 128 a0 a1

/-- The body's arithmetic on a tile is the product of the tile with the weight. -/
theorem tile_product (x0 : Vec Ideal S5000x128 .f32) (x1 : Vec Ideal S128x128 .f32) :
    k4_pay1 (F := Ideal) x0 x1 = dense 5000 128 128 x0 x1 := by
  funext j
  show matmul (F := Ideal) (DotDims.plain 5000 128 128) none
      (truncf .bf16 (shapeCast S5000x128 x0 shapeCasts_S5000x128_S5000x128) bitsLt_bf16_f32) (truncf .bf16 x1 bitsLt_bf16_f32)
      (constant ⟨2, ![5000, 128]⟩ .f32 0x00000000#32) j = _
  rw [shapeCast_self]
  exact Cert.LibPlainDot.matmul_plain 5000 128 128 none _ _ j

/-- Row j of a tile's product is row i of the whole product when the tile's row j is the whole's row i, the tile's
    weight is the whole weight, and the columns agree. -/
theorem tile_of_whole (X : FVec Ideal ⟨2, ![100000, 128]⟩ .f32) (W w : FVec Ideal ⟨2, ![128, 128]⟩ .f32)
    (x : FVec Ideal ⟨2, ![5000, 128]⟩ .f32) (j : (⟨2, ![5000, 128]⟩ : Shape).Idx) (i : (⟨2, ![100000, 128]⟩ : Shape).Idx)
    (hx : ∀ k : Fin 128, x (ix2 (j 0) k) = X (ix2 (i 0) k)) (hw : ∀ y, w y = W y) (hc : (j 1).val = (i 1).val) :
    dense 5000 128 128 x w j = dense 100000 128 128 X W i := by
  obtain rfl : w = W := funext hw
  exact Cert.LibReluDense.dense_block 100000 128 128 5000 X x w i j hx hc

/-- The index maps over the twenty grid points: the left array's and the output's block row is the point, their
    block column 0; the weight's block is always the first. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the arrays as the region finds them. -/
theorem flushed_eq (c : Dev nD) (t : Fin cfg4.N) :
    (dat4 V c).flushed 2 t = ((cfg4.win 2).blk t).view.read (Elt Ideal) (product (V c main_v63) (V c main_arg8)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  rw [tile_product]
  obtain ⟨e0, e1, e2, e3, e4, e5⟩ := index_maps t
  funext j
  show dense 5000 128 128 (iblk4 V c 0 t) (iblk4 V c 1 t) j
    = dense 100000 128 128 (V c main_v63) (V c main_arg8) (((cfg4.win 2).blk t).view.emb j)
  refine tile_of_whole (V c main_v63) (V c main_arg8) (iblk4 V c 1 t) (iblk4 V c 0 t) j (((cfg4.win 2).blk t).view.emb j)
    (fun k => ?_) (fun y => ?_) ?_
  · show V c main_v63 (((cfg4.win 0).blk t).view.emb (ix2 (j 0) k)) = V c main_v63 (ix2 ((((cfg4.win 2).blk t).view.emb j) 0) k)
    refine congrArg (V c main_v63) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · show V c main_arg8 (((cfg4.win 1).blk t).view.emb y) = V c main_arg8 y
    refine congrArg (V c main_arg8) (funext fun a => Fin.ext ?_)
    match a with
    | ⟨0, _⟩ =>
      show win4_1.index t (0 : Fin 2) * 128 + 1 * (y 0).val = (y 0).val
      omega
    | ⟨1, _⟩ =>
      show win4_1.index t (1 : Fin 2) * 128 + 1 * (y 1).val = (y 1).val
      omega
  · show (j 1).val = win4_2.index t (1 : Fin 2) * 128 + 1 * (j 1).val
    omega

/-- An index of the output array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v64).slice (win4_2.rect t)).set ↔ _
  rw [View.set_slice_whole, Rect.mem_set_unit]
  exact Iff.rfl

/-- The twenty blocks cover the output array: row r lies in the block of point r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨e0, e1, e2, e3, e4, e5⟩ := index_maps ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    have e4' : win4_2.index ⟨(i 0).val / 5000, ht⟩ (0 : Fin 2) = (i 0).val / 5000 := e4
    omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    omega

/-- The output array after the region: the whole product of the two input arrays as the region finds them. -/
theorem array_eq (c : Dev nD) :
    (dat4 V c).arrAt 2 cfg4.N = product (V c main_v63) (V c main_arg8) :=
  (dat4 V c).arrAt_eq_of_cover 2 _ (fun t _ => flushed_eq V c t) cover

end Cert.KernelIdeal.Region4

end
-- ==== Proof.Region5.lean ====
/-
  Region 5 of the kernel program (the third layer's relu(agg + b3)): a bias row added to a 100000×128 array and the positive part taken,
  in twenty tiles of 5000 rows.

  At grid point t the body sees rows 5000·t … 5000·t + 4999 of the array and the whole one-row bias, and stores
      (r, k) ↦ max (x(r,k) + b(0,k)) 0
  into the same rows of the output. An entry of that stage depends on the array only through the same entry, so
  each tile is that block of rows of the stage of the whole array; the twenty tiles cover the 100000 rows; hence
  the output array ends as the stage of the whole array as the region finds it. Everything is stated at a parameter
  V, the buffer contents when the region is entered.
-/
import proofs.«140320_j86998857548336_1_alg».proof.Proof.Gen.KernelIdeal.Frame
import proofs.«140320_j86998857548336_1_alg».proof.Proof.LibReluDense
import Idealize.ShloMosaic.Lib.Pipeline.Value
import Idealize.ShloMosaic.Lib.ValueIdx

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.ShloMosaic.Pipeline (Dat Cfg Window)
open Cert.LibReluDense (biasRelu)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the array plus the bias row, cut off below at 0. -/
abbrev shifted (a0 : S100000x128.Idx → Elt Ideal .f32) (a1 : S1x128.Idx → Elt Ideal .f32) : S100000x128.Idx → Elt Ideal .f32 :=
  biasRelu 100000 128 a0 a1

/-- The body's arithmetic on a tile is that stage of the tile. -/
theorem tile_stage (x0 : Vec Ideal S5000x128 .f32) (x1 : Vec Ideal S1x128 .f32) :
    k5_pay1 (F := Ideal) x0 x1 = biasRelu 5000 128 x0 x1 := by
  unfold k5_pay1
  exact Cert.LibReluDense.biasRelu_of_broadcastTo 5000 128 x0 x1 shapeCasts_S5000x128_S5000x128 shapeCasts_S1x128_S1x128
    broadcasts_S1x128_S5000x128

/-- Entry j of a tile's stage is entry i of the whole's when the tile's entry j is the whole's entry i, the tile's bias
    row is the whole row, and the columns agree. -/
theorem tile_of_whole (X : FVec Ideal ⟨2, ![100000, 128]⟩ .f32) (B b : FVec Ideal ⟨2, ![1, 128]⟩ .f32)
    (x : FVec Ideal ⟨2, ![5000, 128]⟩ .f32) (j : (⟨2, ![5000, 128]⟩ : Shape).Idx) (i : (⟨2, ![100000, 128]⟩ : Shape).Idx)
    (hx : x j = X i) (hb : ∀ y, b y = B y) (hc : (j 1).val = (i 1).val) :
    biasRelu 5000 128 x b j = biasRelu 100000 128 X B i := by
  obtain rfl : b = B := funext hb
  exact Cert.LibReluDense.biasRelu_block 100000 128 5000 X x b i j hx hc

/-- The index maps over the twenty grid points: the array's and the output's block row is the point, their block
    column 0; the bias row's block is always the first. -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the stage of the whole array as the region finds it. -/
theorem flushed_eq (c : Dev nD) (t : Fin cfg5.N) :
    (dat5 V c).flushed 2 t = ((cfg5.win 2).blk t).view.read (Elt Ideal) (shifted (V c main_v77) (V c main_v78)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  rw [tile_stage]
  obtain ⟨e0, e1, e2, e3, e4, e5⟩ := index_maps t
  funext j
  show biasRelu 5000 128 (iblk5 V c 0 t) (iblk5 V c 1 t) j
    = biasRelu 100000 128 (V c main_v77) (V c main_v78) (((cfg5.win 2).blk t).view.emb j)
  refine tile_of_whole (V c main_v77) (V c main_v78) (iblk5 V c 1 t) (iblk5 V c 0 t) j (((cfg5.win 2).blk t).view.emb j)
    ?_ (fun y => ?_) ?_
  · show V c main_v77 (((cfg5.win 0).blk t).view.emb j) = V c main_v77 (((cfg5.win 2).blk t).view.emb j)
    refine congrArg (V c main_v77) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * (j 1).val = win5_2.index t (1 : Fin 2) * 128 + 1 * (j 1).val
      omega
  · show V c main_v78 (((cfg5.win 1).blk t).view.emb y) = V c main_v78 y
    refine congrArg (V c main_v78) (funext fun a => Fin.ext ?_)
    match a with
    | ⟨0, _⟩ =>
      show win5_1.index t (0 : Fin 2) * 1 + 1 * (y 0).val = (y 0).val
      omega
    | ⟨1, _⟩ =>
      show win5_1.index t (1 : Fin 2) * 128 + 1 * (y 1).val = (y 1).val
      omega
  · show (j 1).val = win5_2.index t (1 : Fin 2) * 128 + 1 * (j 1).val
    omega

/-- An index of the output array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v79).slice (win5_2.rect t)).set ↔ _
  rw [View.set_slice_whole, Rect.mem_set_unit]
  exact Iff.rfl

/-- The twenty blocks cover the output array: row r lies in the block of point r / 5000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨e0, e1, e2, e3, e4, e5⟩ := index_maps ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    have e4' : win5_2.index ⟨(i 0).val / 5000, ht⟩ (0 : Fin 2) = (i 0).val / 5000 := e4
    omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    omega

/-- The output array after the region: the stage of the whole array and the bias row as the region finds them. -/
theorem array_eq (c : Dev nD) :
    (dat5 V c).arrAt 2 cfg5.N = shifted (V c main_v77) (V c main_v78) :=
  (dat5 V c).arrAt_eq_of_cover 2 _ (fun t _ => flushed_eq V c t) cover

end Cert.KernelIdeal.Region5

end
-- ==== Proof.Layer3.lean ====
/-
  The third layer of the kernel program: h · W3 in a region, the gather, scaling and scatter-add on the host, and
  relu(· + b3) in a region.

  Each of the kernel program's buffers after these segments is identified with the reference's stage as a function
  of the launch arguments: the region's product with the reference's host product of the previous layer's output,
  the host operations with the same host operations on equal operands, and the region's bias-and-positive-part
  with the reference's add and relu. The edge lists, the normalised weights and the later arguments are carried
  along unchanged: no region has them among its arrays and no host operation writes them.
-/
import proofs.«140320_j86998857548336_1_alg».proof.Proof.Layer2
import proofs.«140320_j86998857548336_1_alg».proof.Proof.Region4
import proofs.«140320_j86998857548336_1_alg».proof.Proof.Region5
import proofs.«140320_j86998857548336_1_alg».proof.Proof.Joins

set_option maxRecDepth 16384

noncomputable section

namespace Cert.KernelIdeal.Layer3

open Cert.KernelIdeal Cert.KernelIdeal.Gen
open Idealize.ShloMosaic Idealize.ShloMosaic.TcCoe Idealize.ShloMosaic.StableHlo

/-- What the one-pass rewriting leaves (operands under a concatenation's list): each operation's result at its own
    buffer is its function's value, at any other buffer what was there. -/
local macro "more_results" : tactic =>
  `(tactic| repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

variable (m : (ℓ : Loc nD τ sig) → Buf (Elt Ideal) ℓ) (ρ : Dev nD → PrngReg) (c : Dev nD)

open Cert.KernelIdeal.Prelude Cert.KernelIdeal.Layer1 Cert.KernelIdeal.Layer2

/-! ## After the product region -/

/-- The layer's product, as the reference's. -/
theorem w10_v64 : W10 (F := Ideal) m ρ c (Proc.devRef .tc main_v64) = Cert.ReferenceIdeal.Read.val_main_v68 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Cert.KernelIdeal.Region4.array_eq (V9 m ρ) c).trans ?_)
  show Cert.LibReluDense.dense 100000 128 128 (W9 m ρ c (Proc.devRef .tc main_v63)) (W9 m ρ c (Proc.devRef .tc main_arg8)) = _
  rw [w9_v63 m ρ c, w9_arg8 m ρ c]
  unfold Cert.ReferenceIdeal.Read.val_main_v68
  exact Cert.Joins.product_host _ _

theorem w10_v3 : W10 (F := Ideal) m ρ c (Proc.devRef .tc main_v3) = Cert.ReferenceIdeal.Read.val_main_v3 (F := Ideal) (m ((c : Thread nD τ).loc main_arg1)) :=
  (W10_of_ne m ρ c main_v3 (by decide)).trans (w9_v3 m ρ c)

theorem w10_v6 : W10 (F := Ideal) m ρ c (Proc.devRef .tc main_v6) = Cert.ReferenceIdeal.Read.val_main_v6 (F := Ideal) (m ((c : Thread nD τ).loc main_arg1)) :=
  (W10_of_ne m ρ c main_v6 (by decide)).trans (w9_v6 m ρ c)

theorem w10_v31 : W10 (F := Ideal) m ρ c (Proc.devRef .tc main_v31) = Cert.ReferenceIdeal.Read.val_main_v31 (F := Ideal) (m ((c : Thread nD τ).loc main_arg1)) (m ((c : Thread nD τ).loc main_arg2)) :=
  (W10_of_ne m ρ c main_v31 (by decide)).trans (w9_v31 m ρ c)

theorem w10_arg3 : W10 (F := Ideal) m ρ c (Proc.devRef .tc main_arg3) = (m ((c : Thread nD τ).loc main_arg3)) :=
  (W10_of_ne m ρ c main_arg3 (by decide)).trans (w9_arg3 m ρ c)

theorem w10_arg9 : W10 (F := Ideal) m ρ c (Proc.devRef .tc main_arg9) = (m ((c : Thread nD τ).loc main_arg9)) :=
  (W10_of_ne m ρ c main_arg9 (by decide)).trans (w9_arg9 m ρ c)

theorem w10_arg10 : W10 (F := Ideal) m ρ c (Proc.devRef .tc main_arg10) = (m ((c : Thread nD τ).loc main_arg10)) :=
  (W10_of_ne m ρ c main_arg10 (by decide)).trans (w9_arg10 m ρ c)

theorem w10_arg11 : W10 (F := Ideal) m ρ c (Proc.devRef .tc main_arg11) = (m ((c : Thread nD τ).loc main_arg11)) :=
  (W10_of_ne m ρ c main_arg11 (by decide)).trans (w9_arg11 m ρ c)

/-! ## After the gather, the scaling by the normalised weights and the scatter-add -/

/-- Each edge carries its source's row of the product times the edge's normalised weight to its destination, where the rows are summed: the same operations on equal operands. -/
theorem w11_v77 : W11 (F := Ideal) m ρ c (Proc.devRef .tc main_v77) = Cert.ReferenceIdeal.Read.val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  have h_v64 := w10_v64 m ρ c
  have h_v3 := w10_v3 m ρ c
  have h_v6 := w10_v6 m ρ c
  have h_v31 := w10_v31 m ρ c
  show StableHlo.after hostOps5 (W10 m ρ c) (Proc.devRef .tc main_v77) = _
  generalize W10 (F := Ideal) m ρ c = V at h_v64 h_v3 h_v6 h_v31 ⊢
  after_results_simp
  more_results
  rw [h_v64, h_v3, h_v6, h_v31]
  simp only [Cert.ReferenceIdeal.Read.val_main_c_12, Cert.ReferenceIdeal.Read.val_main_v69, Cert.ReferenceIdeal.Read.val_main_v70, Cert.ReferenceIdeal.Read.val_main_c_13, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_v76, Cert.ReferenceIdeal.Read.val_main_v77, Cert.ReferenceIdeal.Read.val_main_v78, Cert.ReferenceIdeal.Read.val_main_cst_14, Cert.ReferenceIdeal.Read.val_main_v79, Cert.ReferenceIdeal.Read.val_main_v80, Cert.ReferenceIdeal.Read.val_main_v81]
  all_goals rfl

/-- The bias as a one-row array: the vector reshaped. -/
theorem w11_v78 : W11 (F := Ideal) m ρ c (Proc.devRef .tc main_v78) = shapeCast S1x128 (m ((c : Thread nD τ).loc main_arg9)) shapeCasts_S128_S1x128 := by
  have h_arg9 := w10_arg9 m ρ c
  show StableHlo.after hostOps5 (W10 m ρ c) (Proc.devRef .tc main_v78) = _
  generalize W10 (F := Ideal) m ρ c = V at h_arg9 ⊢
  after_results_simp
  more_results
  rw [h_arg9]
  all_goals rfl

theorem w11_arg3 : W11 (F := Ideal) m ρ c (Proc.devRef .tc main_arg3) = (m ((c : Thread nD τ).loc main_arg3)) := by
  have h := w10_arg3 m ρ c
  show StableHlo.after hostOps5 (W10 m ρ c) (Proc.devRef .tc main_arg3) = _
  generalize W10 (F := Ideal) m ρ c = V at h ⊢
  after_results_simp
  exact h

theorem w11_arg10 : W11 (F := Ideal) m ρ c (Proc.devRef .tc main_arg10) = (m ((c : Thread nD τ).loc main_arg10)) := by
  have h := w10_arg10 m ρ c
  show StableHlo.after hostOps5 (W10 m ρ c) (Proc.devRef .tc main_arg10) = _
  generalize W10 (F := Ideal) m ρ c = V at h ⊢
  after_results_simp
  exact h

theorem w11_arg11 : W11 (F := Ideal) m ρ c (Proc.devRef .tc main_arg11) = (m ((c : Thread nD τ).loc main_arg11)) := by
  have h := w10_arg11 m ρ c
  show StableHlo.after hostOps5 (W10 m ρ c) (Proc.devRef .tc main_arg11) = _
  generalize W10 (F := Ideal) m ρ c = V at h ⊢
  after_results_simp
  exact h

/-! ## After the bias-and-positive-part region -/

/-- The layer's output, as the reference's add, then relu. -/
theorem w12_v79 : W12 (F := Ideal) m ρ c (Proc.devRef .tc main_v79) = Cert.ReferenceIdeal.Read.val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ((Cert.KernelIdeal.Region5.array_eq (V11 m ρ) c).trans ?_)
  show Cert.LibReluDense.biasRelu 100000 128 (W11 m ρ c (Proc.devRef .tc main_v77)) (W11 m ρ c (Proc.devRef .tc main_v78)) = _
  rw [w11_v77 m ρ c, w11_v78 m ρ c]
  simp only [Cert.ReferenceIdeal.Read.val_main_v85, Cert.ReferenceIdeal.Read.val_main_v84, Cert.ReferenceIdeal.Read.val_main_v83, Cert.ReferenceIdeal.Read.val_main_v82, Cert.ReferenceIdeal.Read.val_main_call3_v0, Cert.ReferenceIdeal.Read.val_main_call3_cst]
  exact Cert.Joins.epilogue_host _ _ _ _ _ _

theorem w12_arg3 : W12 (F := Ideal) m ρ c (Proc.devRef .tc main_arg3) = (m ((c : Thread nD τ).loc main_arg3)) :=
  (W12_of_ne m ρ c main_arg3 (by decide)).trans (w11_arg3 m ρ c)

theorem w12_arg10 : W12 (F := Ideal) m ρ c (Proc.devRef .tc main_arg10) = (m ((c : Thread nD τ).loc main_arg10)) :=
  (W12_of_ne m ρ c main_arg10 (by decide)).trans (w11_arg10 m ρ c)

theorem w12_arg11 : W12 (F := Ideal) m ρ c (Proc.devRef .tc main_arg11) = (m ((c : Thread nD τ).loc main_arg11)) :=
  (W12_of_ne m ρ c main_arg11 (by decide)).trans (w11_arg11 m ρ c)

end Cert.KernelIdeal.Layer3

end
-- ==== Proof.Region6.lean ====
/-
  Region 6 of the kernel program: the classifier, pooled · Wl + bl, at a single grid point.

  The grid has one point and every window's block is its whole array: the 64×128 pooled features, the 128×2 weight,
  the one-row bias and the 64×2 output. The body stores
      (a, c) ↦ Σ_{k<128} p(a,k) · w(k,c) + b(0,c)
  — a matrix unit's product into a zero accumulator, the operands first narrowed to a 16-bit float format, which on
  the extended reals is the identity, plus the bias row spread over the rows — so the output array ends as that
  affine map of the three arrays as the region finds them. Everything is stated at a parameter V, the buffer
  contents when the region is entered.
-/
import proofs.«140320_j86998857548336_1_alg».proof.Proof.Gen.KernelIdeal.Frame
import proofs.«140320_j86998857548336_1_alg».proof.Proof.LibEluStage
import Idealize.ShloMosaic.Lib.Pipeline.Value
import Idealize.ShloMosaic.Lib.ValueIdx

set_option maxRecDepth 16384

noncomputable section

namespace Cert.KernelIdeal.Region6

open Cert.KernelIdeal Cert.KernelIdeal.Gen
open Idealize.ShloMosaic Idealize.ShloMosaic.TcCoe Idealize.ShloMosaic.ValueIdx
open Idealize.ShloMosaic.Pipeline (Dat Cfg Window)
open Cert.LibEluStage (affine)

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the product plus the bias row. -/
abbrev classified (a0 : S64x128.Idx → Elt Ideal .f32) (a1 : S128x2.Idx → Elt Ideal .f32) (a2 : S1x2.Idx → Elt Ideal .f32) :
    S64x2.Idx → Elt Ideal .f32 :=
  affine 64 128 2 a0 a1 a2

/-- The body's arithmetic is the affine map of its three loaded arrays, entry by entry: the left operand's cast to
    its own shape and the bias row's are the identity, the product into a zero accumulator is the sum over k, and
    the row spread over the rows reads its entry of the same column. -/
theorem body_stage (x0 : Vec Ideal S64x128 .f32) (x1 : Vec Ideal S128x2 .f32) (x2 : Vec Ideal S1x2 .f32) :
    k6_pay1 (F := Ideal) x0 x1 x2 = affine 64 128 2 x0 x1 x2 := by
  funext i
  obtain ⟨a, c, rfl⟩ : ∃ (a : Fin 64) (c : Fin 2), i = ix2 a c := ⟨i 0, i 1, eq_ix2 i⟩
  show addf (matmul (F := Ideal) (DotDims.plain 64 128 2) none
        (truncf .bf16 (shapeCast S64x128 x0 shapeCasts_S64x128_S64x128) bitsLt_bf16_f32) (truncf .bf16 x1 bitsLt_bf16_f32)
        (constant ⟨2, ![64, 2]⟩ .f32 0x00000000#32))
      (broadcastTo ⟨2, ![64, 2]⟩ (shapeCast ⟨2, ![1, 2]⟩ x2 shapeCasts_S1x2_S1x2) broadcasts_S1x2_S64x2) (ix2 a c) = _
  rw [shapeCast_self, shapeCast_self, addf_apply, Cert.LibPlainDot.matmul_plain, Cert.LibDenseStage.row_broadcastTo,
    Cert.LibEluStage.affine_apply]
  rfl

/-- With every block the whole array, the map of the blocks at j is the map of the arrays at the same index. -/
theorem whole_blocks (X x : FVec Ideal ⟨2, ![64, 128]⟩ .f32) (W w : FVec Ideal ⟨2, ![128, 2]⟩ .f32)
    (B b : FVec Ideal ⟨2, ![1, 2]⟩ .f32) (j i : (⟨2, ![64, 2]⟩ : Shape).Idx)
    (hx : ∀ y, x y = X y) (hw : ∀ y, w y = W y) (hb : ∀ y, b y = B y) (hj : j = i) :
    affine 64 128 2 x w b j = affine 64 128 2 X W B i := by
  obtain rfl : x = X := funext hx
  obtain rfl : w = W := funext hw
  obtain rfl : b = B := funext hb
  rw [hj]

/-- The index maps at the one grid point: every window's block is the first. -/
theorem index_maps : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the point writes back is the affine map of the three arrays as the region finds them. -/
theorem flushed_eq (c : Dev nD) (t : Fin cfg6.N) :
    (dat6 V c).flushed 3 t = ((cfg6.win 3).blk t).view.read (Elt Ideal)
      (classified (V c main_v91) (V c main_arg10) (V c main_v92)) := by
  show (cfg6.win 3).cut (grid6.coords t) ((dat6 V c).after 3 t) = _
  rw [after6_3]
  unfold out6_3
  rw [View.canon_unit_zero zero_offsets]
  simp only [View.ld_unit_zero (S := S64x128) zero_offsets, View.ld_unit_zero (S := S128x2) zero_offsets,
    View.ld_unit_zero (S := S1x2) zero_offsets]
  rw [body_stage]
  obtain ⟨e0, e1, e2, e3, e4, e5, e6, e7⟩ := index_maps t
  funext j
  show affine 64 128 2 (iblk6 V c 0 t) (iblk6 V c 1 t) (iblk6 V c 2 t) j
    = affine 64 128 2 (V c main_v91) (V c main_arg10) (V c main_v92) (((cfg6.win 3).blk t).view.emb j)
  refine whole_blocks (V c main_v91) (iblk6 V c 0 t) (V c main_arg10) (iblk6 V c 1 t) (V c main_v92) (iblk6 V c 2 t) j
    (((cfg6.win 3).blk t).view.emb j) (fun y => ?_) (fun y => ?_) (fun y => ?_) ?_
  · show V c main_v91 (((cfg6.win 0).blk t).view.emb y) = V c main_v91 y
    refine congrArg (V c main_v91) (funext fun a => Fin.ext ?_)
    match a with
    | ⟨0, _⟩ =>
      show win6_0.index t (0 : Fin 2) * 64 + 1 * (y 0).val = (y 0).val
      omega
    | ⟨1, _⟩ =>
      show win6_0.index t (1 : Fin 2) * 128 + 1 * (y 1).val = (y 1).val
      omega
  · show V c main_arg10 (((cfg6.win 1).blk t).view.emb y) = V c main_arg10 y
    refine congrArg (V c main_arg10) (funext fun a => Fin.ext ?_)
    match a with
    | ⟨0, _⟩ =>
      show win6_1.index t (0 : Fin 2) * 128 + 1 * (y 0).val = (y 0).val
      omega
    | ⟨1, _⟩ =>
      show win6_1.index t (1 : Fin 2) * 2 + 1 * (y 1).val = (y 1).val
      omega
  · show V c main_v92 (((cfg6.win 2).blk t).view.emb y) = V c main_v92 y
    refine congrArg (V c main_v92) (funext fun a => Fin.ext ?_)
    match a with
    | ⟨0, _⟩ =>
      show win6_2.index t (0 : Fin 2) * 1 + 1 * (y 0).val = (y 0).val
      omega
    | ⟨1, _⟩ =>
      show win6_2.index t (1 : Fin 2) * 2 + 1 * (y 1).val = (y 1).val
      omega
  · refine funext fun a => Fin.ext ?_
    match a with
    | ⟨0, _⟩ =>
      show (j 0).val = win6_3.index t (0 : Fin 2) * 64 + 1 * (j 0).val
      omega
    | ⟨1, _⟩ =>
      show (j 1).val = win6_3.index t (1 : Fin 2) * 2 + 1 * (j 1).val
      omega

/-- An index of the output array is in the point's block iff each coordinate is in the block's range on its axis. -/
theorem mem_blk (t : Fin cfg6.N) (i : S64x2.Idx) :
    i ∈ ((cfg6.win 3).blk t).view.set ↔ ∀ a : Fin 2, win6_3.index t a * S64x2.size a ≤ (i a).val
      ∧ (i a).val < win6_3.index t a * S64x2.size a + S64x2.size a := by
  show i ∈ ((View.whole main_v93).slice (win6_3.rect t)).set ↔ _
  rw [View.set_slice_whole, Rect.mem_set_unit]
  exact Iff.rfl

/-- The one block covers the output array. -/
theorem cover (i : S64x2.Idx) :
    ∃ t : Fin cfg6.N, (cfg6.win 3).flush t = true ∧ i ∈ ((cfg6.win 3).blk t).view.set := by
  have hi0 : (i 0).val < 64 := (i 0).isLt
  have hi1 : (i 1).val < 2 := (i 1).isLt
  obtain ⟨e0, e1, e2, e3, e4, e5, e6, e7⟩ := index_maps t6_0
  refine ⟨t6_0, flush6_3 _, ?_⟩
  rw [mem_blk]
  intro a
  match a with
  | ⟨0, _⟩ =>
    show win6_3.index t6_0 (0 : Fin 2) * 64 ≤ (i 0).val ∧ (i 0).val < win6_3.index t6_0 (0 : Fin 2) * 64 + 64
    omega
  | ⟨1, _⟩ =>
    show win6_3.index t6_0 (1 : Fin 2) * 2 ≤ (i 1).val ∧ (i 1).val < win6_3.index t6_0 (1 : Fin 2) * 2 + 2
    omega

/-- The output array after the region: the affine map of the three arrays as the region finds them. -/
theorem array_eq (c : Dev nD) :
    (dat6 V c).arrAt 3 cfg6.N = classified (V c main_v91) (V c main_arg10) (V c main_v92) :=
  (dat6 V c).arrAt_eq_of_cover 3 _ (fun t _ => flushed_eq V c t) cover

end Cert.KernelIdeal.Region6

end
-- ==== Proof.Head.lean ====
/-
  The end of the kernel program: the mean over each graph's nodes on the host, and the classifier in a region.

  After the third layer both programs sum the node features by graph, count the nodes of each graph, and divide
  the sums by max(count, 1): the same host operations on equal operands. The kernel program then reshapes the
  classifier's bias into a one-row array and runs pooled · Wl + row in a region, where the reference applies the
  host's product and adds the bias spread over the rows. So the kernel program's result buffer, when @main returns,
  holds the reference's last stage as a function of the twelve launch arguments: kernel_value.
-/
import proofs.«140320_j86998857548336_1_alg».proof.Proof.Layer3
import proofs.«140320_j86998857548336_1_alg».proof.Proof.Region6
import proofs.«140320_j86998857548336_1_alg».proof.Proof.Joins

set_option maxRecDepth 16384

noncomputable section

namespace Cert.KernelIdeal.Head

open Cert.KernelIdeal Cert.KernelIdeal.Gen
open Idealize.ShloMosaic Idealize.ShloMosaic.TcCoe Idealize.ShloMosaic.StableHlo

/-- What the one-pass rewriting leaves (operands under a concatenation's list): each operation's result at its own
    buffer is its function's value, at any other buffer what was there. -/
local macro "more_results" : tactic =>
  `(tactic| repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

variable (m : (ℓ : Loc nD τ sig) → Buf (Elt Ideal) ℓ) (ρ : Dev nD → PrngReg) (c : Dev nD)

open Cert.KernelIdeal.Prelude Cert.KernelIdeal.Layer1 Cert.KernelIdeal.Layer2 Cert.KernelIdeal.Layer3

/-! ## After the pooling -/

/-- The mean of the third layer's output over each graph's nodes: sums and counts scattered by graph number, the quotient by max(count, 1). -/
theorem w13_v91 : W13 (F := Ideal) m ρ c (Proc.devRef .tc main_v91) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h_v79 := w12_v79 m ρ c
  have h_arg3 := w12_arg3 m ρ c
  show StableHlo.after hostOps6 (W12 m ρ c) (Proc.devRef .tc main_v91) = _
  generalize W12 (F := Ideal) m ρ c = V at h_v79 h_arg3 ⊢
  after_results_simp
  more_results
  rw [h_v79, h_arg3]
  simp only [Cert.ReferenceIdeal.Read.val_main_cst_15, Cert.ReferenceIdeal.Read.val_main_v86, Cert.ReferenceIdeal.Read.val_main_v87, Cert.ReferenceIdeal.Read.val_main_v88, Cert.ReferenceIdeal.Read.val_main_cst_16, Cert.ReferenceIdeal.Read.val_main_v89, Cert.ReferenceIdeal.Read.val_main_cst_17, Cert.ReferenceIdeal.Read.val_main_v90, Cert.ReferenceIdeal.Read.val_main_v91, Cert.ReferenceIdeal.Read.val_main_v92, Cert.ReferenceIdeal.Read.val_main_cst_18, Cert.ReferenceIdeal.Read.val_main_v93, Cert.ReferenceIdeal.Read.val_main_v94, Cert.ReferenceIdeal.Read.val_main_v95, Cert.ReferenceIdeal.Read.val_main_v96, Cert.ReferenceIdeal.Read.val_main_v97]
  all_goals rfl

/-- The classifier's bias as a one-row array: the vector reshaped. -/
theorem w13_v92 : W13 (F := Ideal) m ρ c (Proc.devRef .tc main_v92) = shapeCast S1x2 (m ((c : Thread nD τ).loc main_arg11)) shapeCasts_S2_S1x2 := by
  have h_arg11 := w12_arg11 m ρ c
  show StableHlo.after hostOps6 (W12 m ρ c) (Proc.devRef .tc main_v92) = _
  generalize W12 (F := Ideal) m ρ c = V at h_arg11 ⊢
  after_results_simp
  more_results
  rw [h_arg11]
  all_goals rfl

theorem w13_arg10 : W13 (F := Ideal) m ρ c (Proc.devRef .tc main_arg10) = (m ((c : Thread nD τ).loc main_arg10)) := by
  have h := w12_arg10 m ρ c
  show StableHlo.after hostOps6 (W12 m ρ c) (Proc.devRef .tc main_arg10) = _
  generalize W12 (F := Ideal) m ρ c = V at h ⊢
  after_results_simp
  exact h

/-! ## After the classifier's region -/

/-- THE KERNEL PROGRAM'S VALUE: when @main returns, its result buffer holds the reference's last stage of the twelve
    launch arguments. -/
theorem kernel_value : W14 (F := Ideal) m ρ c (Proc.devRef .tc main_v93) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ((Cert.KernelIdeal.Region6.array_eq (V13 m ρ) c).trans ?_)
  show Cert.LibEluStage.affine 64 128 2 (W13 m ρ c (Proc.devRef .tc main_v91)) (W13 m ρ c (Proc.devRef .tc main_arg10))
    (W13 m ρ c (Proc.devRef .tc main_v92)) = _
  rw [w13_v91 m ρ c, w13_arg10 m ρ c, w13_v92 m ρ c]
  simp only [Cert.ReferenceIdeal.Read.val_main_v101, Cert.ReferenceIdeal.Read.val_main_v100, Cert.ReferenceIdeal.Read.val_main_v99, Cert.ReferenceIdeal.Read.val_main_v98]
  exact Cert.Joins.classifier_host _ _ _ _ _ _

end Cert.KernelIdeal.Head

end
-- ==== Proof.Claims.lean ====
/-
  The five claims, each from the modules before it.

  The frames. The kernel program at the word level and at the extended reals is seven pipelined regions among
  stretches of host operations; that every weakly fair execution terminates, nothing faulting, with the twelve
  argument arrays as launched, is the generated frame of each. The reference is host operations only, and its frame
  is its generated run with the result dropped.

  The idealization's ledger is empty — the kernel's text read at the extended reals is its idealization — so there is
  nothing to preserve.

  The value. At the extended reals a change of float format is the identity, so each of the kernel's product
  regions leaves Σ_k h(a,k)·W(k,c), which is what the host's product is; each bias region leaves max(x + b, 0),
  which is the reference's add and relu; the classifier's region leaves Σ_k p(a,k)·Wl(k,c) + bl(c); and between
  them both programs apply the same host operations — self loops, degrees, the normalised edge weights, gather,
  scale, scatter-add, the mean over each graph — to equal operands. Hence the kernel program's result is the
  reference's last stage of the launch arguments (Head.kernel_value), the reference's run ends at that stage of its
  own arguments, and the two agree when the arguments do. No entry is assumed finite: sums and products are
  re-associated nowhere, only re-spelt.
-/
import proofs.«140320_j86998857548336_1_alg».proof.Defs
import proofs.«140320_j86998857548336_1_alg».proof.Proof.Gen.Kernel.Frame
import proofs.«140320_j86998857548336_1_alg».proof.Proof.Gen.KernelIdeal.Frame
import proofs.«140320_j86998857548336_1_alg».proof.Proof.Gen.ReferenceIdeal.Run
import proofs.«140320_j86998857548336_1_alg».proof.Proof.Gen.ReferenceIdeal.Read
import proofs.«140320_j86998857548336_1_alg».proof.Proof.Gen.Pre_finite_inputs
import proofs.«140320_j86998857548336_1_alg».proof.Proof.ResultRun
import proofs.«140320_j86998857548336_1_alg».proof.Proof.Head

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the arguments, end with the reference's last stage of the kernel side's
    launch arguments in their result buffers. -/
theorem algebraic : Cert.algebraic_KernelIdeal_ReferenceIdeal := by
  intro m ρ m' ρ' _ hagree
  refine ⟨fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Head.kernel_value m ρ c), (h c).2⟩)
      (Cert.KernelIdeal.ResultRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11⟩ := hagree c
    rw [(h c).1, Cert.ReferenceIdeal.Read.val_main_v101_eq, e0, e1, e2, e3, e4, e5, e6, e7, e8, e9, e10, e11]

end Cert.Proof.Claims

end
-- ==== Proof.lean ====
/-
  A three-layer graph convolution network with mean pooling and a linear classifier: the Pallas kernel program
  against its jnp reference, equal over the extended reals.

  The kernel program runs the dense pieces — the three products h · W, the three bias-and-relu epilogues, and the
  final pooled · Wl + bl — as pipelined regions, row-tiled where the array has 100000 rows, and leaves the
  data-dependent pieces (self loops, degrees and the symmetric normalisation, the per-edge gather, scaling and
  scatter-add, the per-graph mean) to the same host operations the reference uses. The proof follows that shape:
    * Proof/Region0 … Region6: what each region's output array holds, as one function of its input arrays —
      each tile is that block of rows of the whole-array function, and the tiles cover the array;
    * Proof/Joins: the three places where the two programs spell one function differently;
    * Proof/Prelude, Layer1, Layer2, Layer3, Head: the kernel program's buffers, segment after segment,
      identified with the reference's stages as functions of the launch arguments;
    * Proof/ResultRun: the kernel program's run with its result buffer named;
    * Proof/Claims: the five claims.
  Assembled here behind the witnesses of the programs' stated side conditions.
-/
import proofs.«140320_j86998857548336_1_alg».proof.Defs
import proofs.«140320_j86998857548336_1_alg».proof.Proof.Gen.Kernel
import proofs.«140320_j86998857548336_1_alg».proof.Proof.Gen.KernelIdeal
import proofs.«140320_j86998857548336_1_alg».proof.Proof.Gen.ReferenceIdeal
import proofs.«140320_j86998857548336_1_alg».proof.Proof.Gen.Pre_finite_inputs
import proofs.«140320_j86998857548336_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
